-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x2 : Shape := ⟨2, ![100000, 2]⟩
abbrev S2x1600000 : Shape := ⟨2, ![2, 1600000]⟩
abbrev S2x16 : Shape := ⟨2, ![2, 16]⟩
abbrev S16 : Shape := ⟨1, ![16]⟩
abbrev S16x32 : Shape := ⟨2, ![16, 32]⟩
abbrev S32 : Shape := ⟨1, ![32]⟩
abbrev S32x16 : Shape := ⟨2, ![32, 16]⟩
abbrev S_ : Shape := ⟨0, ![]⟩

class Facts : Prop where
  bcast_S_S100000x2 : S_.BroadcastsInDim S100000x2 (![] : Fin 0 → Fin S100000x2.rank)
  reducesTo_S100000x2_S_d0_1 : S100000x2.ReducesTo [0, 1] S_
  h_S_ : 0 < S_.numel
  bcast_S_S2x16 : S_.BroadcastsInDim S2x16 (![] : Fin 0 → Fin S2x16.rank)
  reducesTo_S2x16_S_d0_1 : S2x16.ReducesTo [0, 1] S_
  bcast_S_S16 : S_.BroadcastsInDim S16 (![] : Fin 0 → Fin S16.rank)
  reducesTo_S16_S_d0 : S16.ReducesTo [0] S_
  bcast_S_S16x32 : S_.BroadcastsInDim S16x32 (![] : Fin 0 → Fin S16x32.rank)
  reducesTo_S16x32_S_d0_1 : S16x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_

variable [Facts]

def fn_part1 {F : FTy → Type} [FloatOps F] (main_arg5 : FVec F S32 .f32) (main_arg6 : FVec F S32x16 .f32) (main_arg7 : FVec F S16 .f32) (main_v13 : IVec S_ 1) (main_v16 : IVec S16x32 1) : IVec S_ 1 :=
  let main_c_5 : IVec S_ 1 := constantI S_ 1 1#1
  let main_v17 : IVec S_ 1 := (fun x v => Host.reduce IntOp.andi x v reducesTo_S16x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x16 .f32 := Host.absf main_arg6
  let main_cst_8 : FVec F S_ .f32 := constant S_ .f32 0x7F800000#32
  let main_v25 : FVec F S32x16 .f32 := broadcastInDim S32x16 ![] bcast_S_S32x16 main_cst_8
  let main_v26 : IVec S32x16 1 := cmpf .olt main_v24 main_v25
  let main_c_9 : IVec S_ 1 := constantI S_ 1 1#1
  let main_v27 : IVec S_ 1 := (fun x v => Host.reduce IntOp.andi x v reducesTo_S32x16_S_d0_1 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  main_v33

def fn {F : FTy → Type} [FloatOps F] (main_arg0 : FVec F S100000x2 .f32) (main_arg1 : IVec S2x1600000 32) (main_arg2 : FVec F S2x16 .f32) (main_arg3 : FVec F S16 .f32) (main_arg4 : FVec F S16x32 .f32) (main_arg5 : FVec F S32 .f32) (main_arg6 : FVec F S32x16 .f32) (main_arg7 : FVec F S16 .f32) : IVec S_ 1 :=
  let main_v0 : FVec F S100000x2 .f32 := Host.absf main_arg0
  let main_cst : FVec F S_ .f32 := constant S_ .f32 0x7F800000#32
  let main_v1 : FVec F S100000x2 .f32 := broadcastInDim S100000x2 ![] bcast_S_S100000x2 main_cst
  let main_v2 : IVec S100000x2 1 := cmpf .olt main_v0 main_v1
  let main_c : IVec S_ 1 := constantI S_ 1 1#1
  let main_v3 : IVec S_ 1 := (fun x v => Host.reduce IntOp.andi x v reducesTo_S100000x2_S_d0_1 h_S_) main_v2 main_c
  let main_v4 : FVec F S2x16 .f32 := Host.absf main_arg2
  let main_cst_0 : FVec F S_ .f32 := constant S_ .f32 0x7F800000#32
  let main_v5 : FVec F S2x16 .f32 := broadcastInDim S2x16 ![] bcast_S_S2x16 main_cst_0
  let main_v6 : IVec S2x16 1 := cmpf .olt main_v4 main_v5
  let main_c_1 : IVec S_ 1 := constantI S_ 1 1#1
  let main_v7 : IVec S_ 1 := (fun x v => Host.reduce IntOp.andi x v reducesTo_S2x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x32 .f32 := Host.absf main_arg4
  let main_cst_4 : FVec F S_ .f32 := constant S_ .f32 0x7F800000#32
  let main_v15 : FVec F S16x32 .f32 := broadcastInDim S16x32 ![] bcast_S_S16x32 main_cst_4
  let main_v16 : IVec S16x32 1 := cmpf .olt main_v14 main_v15
  fn_part1 (F := F) main_arg5 main_arg6 main_arg7 main_v13 main_v16
-- ==== Kernel.lean ====
abbrev S100000x2 : Shape := ⟨2, ![100000, 2]⟩
abbrev S2x1600000 : Shape := ⟨2, ![2, 1600000]⟩
abbrev S2x16 : Shape := ⟨2, ![2, 16]⟩
abbrev S16 : Shape := ⟨1, ![16]⟩
abbrev S16x32 : Shape := ⟨2, ![16, 32]⟩
abbrev S32 : Shape := ⟨1, ![32]⟩
abbrev S32x16 : Shape := ⟨2, ![32, 16]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x16 : Shape := ⟨2, ![100000, 16]⟩
abbrev S10000x2 : Shape := ⟨2, ![10000, 2]⟩
abbrev S10000x16 : Shape := ⟨2, ![10000, 16]⟩
abbrev S1700000x16 : Shape := ⟨2, ![1700000, 16]⟩
abbrev S5000x16 : Shape := ⟨2, ![5000, 16]⟩
abbrev S5000x1 : Shape := ⟨2, ![5000, 1]⟩
abbrev S1x16 : Shape := ⟨2, ![1, 16]⟩
abbrev S100000x32 : Shape := ⟨2, ![100000, 32]⟩
abbrev S10000x32 : Shape := ⟨2, ![10000, 32]⟩
abbrev S1700000x32 : Shape := ⟨2, ![1700000, 32]⟩
abbrev S5000x32 : Shape := ⟨2, ![5000, 32]⟩
abbrev S1x32 : Shape := ⟨2, ![1, 32]⟩

abbrev nBuf : Space → Nat
  | .hbm => 103
  | .vmem => 48
  | .smem => 0
  | _ => 0

abbrev bufTy : (tb : Table) → Fin (tcTables nBuf tb) → BufTy
  | .hbm, ⟨0, _⟩ => ⟨S100000x2, .f32⟩
  | .hbm, ⟨1, _⟩ => ⟨S2x1600000, .i32⟩
  | .hbm, ⟨2, _⟩ => ⟨S2x16, .f32⟩
  | .hbm, ⟨3, _⟩ => ⟨S16, .f32⟩
  | .hbm, ⟨4, _⟩ => ⟨S16x32, .f32⟩
  | .hbm, ⟨5, _⟩ => ⟨S32, .f32⟩
  | .hbm, ⟨6, _⟩ => ⟨S32x16, .f32⟩
  | .hbm, ⟨7, _⟩ => ⟨S16, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000, .f32⟩
  | .hbm, ⟨50, _⟩ => ⟨S1700000, .f32⟩
  | .hbm, ⟨51, _⟩ => ⟨S1700000x1, .f32⟩
  | .hbm, ⟨52, _⟩ => ⟨S100000x16, .f32⟩
  | .hbm, ⟨53, _⟩ => ⟨S_, .i32⟩
  | .hbm, ⟨54, _⟩ => ⟨S1700000, .i32⟩
  | .hbm, ⟨55, _⟩ => ⟨S1700000, .i1⟩
  | .hbm, ⟨56, _⟩ => ⟨S_, .i32⟩
  | .hbm, ⟨57, _⟩ => ⟨S1700000, .i32⟩
  | .hbm, ⟨58, _⟩ => ⟨S1700000, .i32⟩
  | .hbm, ⟨59, _⟩ => ⟨S1700000, .i32⟩
  | .hbm, ⟨60, _⟩ => ⟨S1700000x1, .i32⟩
  | .hbm, ⟨61, _⟩ => ⟨S1700000x16, .f32⟩
  | .hbm, ⟨62, _⟩ => ⟨S1700000x16, .f32⟩
  | .hbm, ⟨63, _⟩ => ⟨S_, .f32⟩
  | .hbm, ⟨64, _⟩ => ⟨S100000x16, .f32⟩
  | .hbm, ⟨65, _⟩ => ⟨S1700000x1, .i32⟩
  | .hbm, ⟨66, _⟩ => ⟨S100000x16, .f32⟩
  | .hbm, ⟨67, _⟩ => ⟨S1x16, .f32⟩
  | .hbm, ⟨68, _⟩ => ⟨S100000x16, .f32⟩
  | .hbm, ⟨69, _⟩ => ⟨S100000x32, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x32, .f32⟩
  | .hbm, ⟨79, _⟩ => ⟨S1700000x32, .f32⟩
  | .hbm, ⟨80, _⟩ => ⟨S_, .f32⟩
  | .hbm, ⟨81, _⟩ => ⟨S100000x32, .f32⟩
  | .hbm, ⟨82, _⟩ => ⟨S1700000x1, .i32⟩
  | .hbm, ⟨83, _⟩ => ⟨S100000x32, .f32⟩
  | .hbm, ⟨84, _⟩ => ⟨S1x32, .f32⟩
  | .hbm, ⟨85, _⟩ => ⟨S100000x32, .f32⟩
  | .hbm, ⟨86, _⟩ => ⟨S100000x16, .f32⟩
  | .hbm, ⟨87, _⟩ => ⟨S_, .i32⟩
  | .hbm, ⟨88, _⟩ => ⟨S1700000, .i32⟩
  | .hbm, ⟨89, _⟩ => ⟨S1700000, .i1⟩
  | .hbm, ⟨90, _⟩ => ⟨S_, .i32⟩
  | .hbm, ⟨91, _⟩ => ⟨S1700000, .i32⟩
  | .hbm, ⟨92, _⟩ => ⟨S1700000, .i32⟩
  | .hbm, ⟨93, _⟩ => ⟨S1700000, .i32⟩
  | .hbm, ⟨94, _⟩ => ⟨S1700000x1, .i32⟩
  | .hbm, ⟨95, _⟩ => ⟨S1700000x16, .f32⟩
  | .hbm, ⟨96, _⟩ => ⟨S1700000x16, .f32⟩
  | .hbm, ⟨97, _⟩ => ⟨S_, .f32⟩
  | .hbm, ⟨98, _⟩ => ⟨S100000x16, .f32⟩
  | .hbm, ⟨99, _⟩ => ⟨S1700000x1, .i32⟩
  | .hbm, ⟨100, _⟩ => ⟨S100000x16, .f32⟩
  | .hbm, ⟨101, _⟩ => ⟨S1x16, .f32⟩
  | .hbm, ⟨102, _⟩ => ⟨S100000x16, .f32⟩
  | .local _ .vmem, ⟨0, _⟩ => ⟨S10000x2, .f32⟩
  | .local _ .vmem, ⟨1, _⟩ => ⟨S10000x2, .f32⟩
  | .local _ .vmem, ⟨2, _⟩ => ⟨S2x16, .f32⟩
  | .local _ .vmem, ⟨3, _⟩ => ⟨S10000x16, .f32⟩
  | .local _ .vmem, ⟨4, _⟩ => ⟨S10000x16, .f32⟩
  | .local _ .vmem, ⟨5, _⟩ => ⟨S5000x16, .f32⟩
  | .local _ .vmem, ⟨6, _⟩ => ⟨S5000x16, .f32⟩
  | .local _ .vmem, ⟨7, _⟩ => ⟨S5000x1, .f32⟩
  | .local _ .vmem, ⟨8, _⟩ => ⟨S5000x1, .f32⟩
  | .local _ .vmem, ⟨9, _⟩ => ⟨S5000x16, .f32⟩
  | .local _ .vmem, ⟨10, _⟩ => ⟨S5000x16, .f32⟩
  | .local _ .vmem, ⟨11, _⟩ => ⟨S10000x16, .f32⟩
  | .local _ .vmem, ⟨12, _⟩ => ⟨S10000x16, .f32⟩
  | .local _ .vmem, ⟨13, _⟩ => ⟨S1x16, .f32⟩
  | .local _ .vmem, ⟨14, _⟩ => ⟨S10000x16, .f32⟩
  | .local _ .vmem, ⟨15, _⟩ => ⟨S10000x16, .f32⟩
  | .local _ .vmem, ⟨16, _⟩ => ⟨S10000x16, .f32⟩
  | .local _ .vmem, ⟨17, _⟩ => ⟨S10000x16, .f32⟩
  | .local _ .vmem, ⟨18, _⟩ => ⟨S16x32, .f32⟩
  | .local _ .vmem, ⟨19, _⟩ => ⟨S10000x32, .f32⟩
  | .local _ .vmem, ⟨20, _⟩ => ⟨S10000x32, .f32⟩
  | .local _ .vmem, ⟨21, _⟩ => ⟨S5000x32, .f32⟩
  | .local _ .vmem, ⟨22, _⟩ => ⟨S5000x32, .f32⟩
  | .local _ .vmem, ⟨23, _⟩ => ⟨S5000x1, .f32⟩
  | .local _ .vmem, ⟨24, _⟩ => ⟨S5000x1, .f32⟩
  | .local _ .vmem, ⟨25, _⟩ => ⟨S5000x32, .f32⟩
  | .local _ .vmem, ⟨26, _⟩ => ⟨S5000x32, .f32⟩
  | .local _ .vmem, ⟨27, _⟩ => ⟨S10000x32, .f32⟩
  | .local _ .vmem, ⟨28, _⟩ => ⟨S10000x32, .f32⟩
  | .local _ .vmem, ⟨29, _⟩ => ⟨S1x32, .f32⟩
  | .local _ .vmem, ⟨30, _⟩ => ⟨S10000x32, .f32⟩
  | .local _ .vmem, ⟨31, _⟩ => ⟨S10000x32, .f32⟩
  | .local _ .vmem, ⟨32, _⟩ => ⟨S10000x32, .f32⟩
  | .local _ .vmem, ⟨33, _⟩ => ⟨S10000x32, .f32⟩
  | .local _ .vmem, ⟨34, _⟩ => ⟨S32x16, .f32⟩
  | .local _ .vmem, ⟨35, _⟩ => ⟨S10000x16, .f32⟩
  | .local _ .vmem, ⟨36, _⟩ => ⟨S10000x16, .f32⟩
  | .local _ .vmem, ⟨37, _⟩ => ⟨S5000x16, .f32⟩
  | .local _ .vmem, ⟨38, _⟩ => ⟨S5000x16, .f32⟩
  | .local _ .vmem, ⟨39, _⟩ => ⟨S5000x1, .f32⟩
  | .local _ .vmem, ⟨40, _⟩ => ⟨S5000x1, .f32⟩
  | .local _ .vmem, ⟨41, _⟩ => ⟨S5000x16, .f32⟩
  | .local _ .vmem, ⟨42, _⟩ => ⟨S5000x16, .f32⟩
  | .local _ .vmem, ⟨43, _⟩ => ⟨S10000x16, .f32⟩
  | .local _ .vmem, ⟨44, _⟩ => ⟨S10000x16, .f32⟩
  | .local _ .vmem, ⟨45, _⟩ => ⟨S1x16, .f32⟩
  | .local _ .vmem, ⟨46, _⟩ => ⟨S10000x16, .f32⟩
  | .local _ .vmem, ⟨47, _⟩ => ⟨S10000x16, .f32⟩
  | _, _ => ⟨S100000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_c_8 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_9 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_c_10 : Ref sig .tc := ⟨.hbm, 70, rfl⟩
abbrev main_v48 : Ref sig .tc := ⟨.hbm, 71, rfl⟩
abbrev main_v49 : Ref sig .tc := ⟨.hbm, 72, rfl⟩
abbrev main_c_11 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_c_13 : Ref sig .tc := ⟨.hbm, 87, rfl⟩
abbrev main_v62 : Ref sig .tc := ⟨.hbm, 88, rfl⟩
abbrev main_v63 : Ref sig .tc := ⟨.hbm, 89, rfl⟩
abbrev main_c_14 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_15 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg1_1 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg2_1 : Ref sig .tc := ⟨.vmem, 31, rfl⟩
abbrev cc6_stg0_0 : Ref sig .tc := ⟨.vmem, 32, rfl⟩
abbrev cc6_stg0_1 : Ref sig .tc := ⟨.vmem, 33, rfl⟩
abbrev cc6_stg1_0 : Ref sig .tc := ⟨.vmem, 34, rfl⟩
abbrev cc6_stg2_0 : Ref sig .tc := ⟨.vmem, 35, rfl⟩
abbrev cc6_stg2_1 : Ref sig .tc := ⟨.vmem, 36, rfl⟩
abbrev cc7_stg0_0 : Ref sig .tc := ⟨.vmem, 37, rfl⟩
abbrev cc7_stg0_1 : Ref sig .tc := ⟨.vmem, 38, rfl⟩
abbrev cc7_stg1_0 : Ref sig .tc := ⟨.vmem, 39, rfl⟩
abbrev cc7_stg1_1 : Ref sig .tc := ⟨.vmem, 40, rfl⟩
abbrev cc7_stg2_0 : Ref sig .tc := ⟨.vmem, 41, rfl⟩
abbrev cc7_stg2_1 : Ref sig .tc := ⟨.vmem, 42, rfl⟩
abbrev cc8_stg0_0 : Ref sig .tc := ⟨.vmem, 43, rfl⟩
abbrev cc8_stg0_1 : Ref sig .tc := ⟨.vmem, 44, rfl⟩
abbrev cc8_stg1_0 : Ref sig .tc := ⟨.vmem, 45, rfl⟩
abbrev cc8_stg2_0 : Ref sig .tc := ⟨.vmem, 46, rfl⟩
abbrev cc8_stg2_1 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem1_1 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem2_1 : DmaSem sig := 31
abbrev cc6_sem0_0 : DmaSem sig := 32
abbrev cc6_sem0_1 : DmaSem sig := 33
abbrev cc6_sem1_0 : DmaSem sig := 34
abbrev cc6_sem2_0 : DmaSem sig := 35
abbrev cc6_sem2_1 : DmaSem sig := 36
abbrev cc7_sem0_0 : DmaSem sig := 37
abbrev cc7_sem0_1 : DmaSem sig := 38
abbrev cc7_sem1_0 : DmaSem sig := 39
abbrev cc7_sem1_1 : DmaSem sig := 40
abbrev cc7_sem2_0 : DmaSem sig := 41
abbrev cc7_sem2_1 : DmaSem sig := 42
abbrev cc8_sem0_0 : DmaSem sig := 43
abbrev cc8_sem0_1 : DmaSem sig := 44
abbrev cc8_sem1_0 : DmaSem sig := 45
abbrev cc8_sem2_0 : DmaSem sig := 46
abbrev cc8_sem2_1 : DmaSem sig := 47

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![340], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S16x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![340], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x32 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x32 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x32 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x32 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S32x16 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S10000x16 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![340], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x16 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x1 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S5000x16 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S10000x16 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x16 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S10000x16 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S1700000_S1700000x1 : S1700000.ShapeCasts S1700000x1
  inb_S10000x2_S10000x2_0_0 : ∀ a, (![0, 0] : Fin 2 → Nat) a + S10000x2.size a ≤ S10000x2.size a
  h_S10000x2 : 0 < S10000x2.numel
  bitsLt_bf16_f32 : FTy.bits .bf16 < FTy.bits .f32
  inb_S2x16_S2x16_0_0 : ∀ a, (![0, 0] : Fin 2 → Nat) a + S2x16.size a ≤ S2x16.size a
  h_S2x16 : 0 < S2x16.numel
  inb_S10000x16_S10000x16_0_0 : ∀ a, (![0, 0] : Fin 2 → Nat) a + S10000x16.size a ≤ S10000x16.size a
  h_S10000x16 : 0 < S10000x16.numel
  inb_S5000x16_S5000x16_0_0 : ∀ a, (![0, 0] : Fin 2 → Nat) a + S5000x16.size a ≤ S5000x16.size a
  h_S5000x16 : 0 < S5000x16.numel
  shapeCasts_S5000x16_S5000x16 : S5000x16.ShapeCasts S5000x16
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x16 : S5000x1.Broadcasts S5000x16
  bcast_S_S100000x16 : S_.BroadcastsInDim S100000x16 (![] : Fin 0 → Fin S100000x16.rank)
  shapeCasts_S16_S1x16 : S16.ShapeCasts S1x16
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S16x32_S16x32_0_0 : ∀ a, (![0, 0] : Fin 2 → Nat) a + S16x32.size a ≤ S16x32.size a
  h_S16x32 : 0 < S16x32.numel
  inb_S10000x32_S10000x32_0_0 : ∀ a, (![0, 0] : Fin 2 → Nat) a + S10000x32.size a ≤ S10000x32.size a
  h_S10000x32 : 0 < S10000x32.numel
  inb_S5000x32_S5000x32_0_0 : ∀ a, (![0, 0] : Fin 2 → Nat) a + S5000x32.size a ≤ S5000x32.size a
  h_S5000x32 : 0 < S5000x32.numel
  shapeCasts_S5000x32_S5000x32 : S5000x32.ShapeCasts S5000x32
  broadcasts_S5000x1_S5000x32 : S5000x1.Broadcasts S5000x32
  bcast_S_S100000x32 : S_.BroadcastsInDim S100000x32 (![] : Fin 0 → Fin S100000x32.rank)
  shapeCasts_S32_S1x32 : S32.ShapeCasts S1x32
  shapeCasts_S10000x32_S10000x32 : S10000x32.ShapeCasts S10000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S32x16_S32x16_0_0 : ∀ a, (![0, 0] : Fin 2 → Nat) a + S32x16.size a ≤ S32x16.size a
  h_S32x16 : 0 < S32x16.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x2_S2x16_S10000x16_1_0_0_1_n_n_wf : DotDims.WF S10000x2 S2x16 S10000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1
  dot_S10000x16_S16x32_S10000x32_1_0_0_1_n_n_wf : DotDims.WF S10000x16 S16x32 S10000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S10000x32_S32x16_S10000x16_1_0_0_1_n_n_wf : DotDims.WF S10000x32 S32x16 S10000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x2.size a ≤ S100000x2.size a
  hwx0_0 : ∀ i : grid0.Coords, EltTy.bits .f32 = 32 ∨ (Rect.block (s := S100000x2) S10000x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x16.size a ≤ S2x16.size a
  hwx0_1 : ∀ i : grid0.Coords, EltTy.bits .f32 = 32 ∨ (Rect.block (s := S2x16) S2x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x16.size a ≤ S100000x16.size a
  hwx0_2 : ∀ i : grid0.Coords, EltTy.bits .f32 = 32 ∨ (Rect.block (s := S100000x16) S10000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S1700000x16.size a
  hwx1_0 : ∀ i : grid1.Coords, EltTy.bits .f32 = 32 ∨ (Rect.block (s := S1700000x16) S5000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S1700000x1.size a
  hwx1_1 : ∀ i : grid1.Coords, EltTy.bits .f32 = 32 ∨ (Rect.block (s := S1700000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x16.size a ≤ S1700000x16.size a
  hwx1_2 : ∀ i : grid1.Coords, EltTy.bits .f32 = 32 ∨ (Rect.block (s := S1700000x16) S5000x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x16.size a ≤ S100000x16.size a
  hwx2_0 : ∀ i : grid2.Coords, EltTy.bits .f32 = 32 ∨ (Rect.block (s := S100000x16) S10000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x16.size a ≤ S1x16.size a
  hwx2_1 : ∀ i : grid2.Coords, EltTy.bits .f32 = 32 ∨ (Rect.block (s := S1x16) S1x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x16.size a ≤ S100000x16.size a
  hwx2_2 : ∀ i : grid2.Coords, EltTy.bits .f32 = 32 ∨ (Rect.block (s := S100000x16) S10000x16.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x16.size a ≤ S100000x16.size a
  hwx3_0 : ∀ i : grid3.Coords, EltTy.bits .f32 = 32 ∨ (Rect.block (s := S100000x16) S10000x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S16x32.size a ≤ S16x32.size a
  hwx3_1 : ∀ i : grid3.Coords, EltTy.bits .f32 = 32 ∨ (Rect.block (s := S16x32) S16x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x32.size a ≤ S100000x32.size a
  hwx3_2 : ∀ i : grid3.Coords, EltTy.bits .f32 = 32 ∨ (Rect.block (s := S100000x32) S10000x32.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x32.size a ≤ S1700000x32.size a
  hwx4_0 : ∀ i : grid4.Coords, EltTy.bits .f32 = 32 ∨ (Rect.block (s := S1700000x32) S5000x32.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S1700000x1.size a
  hwx4_1 : ∀ i : grid4.Coords, EltTy.bits .f32 = 32 ∨ (Rect.block (s := S1700000x1) S5000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x32.size a ≤ S1700000x32.size a
  hwx4_2 : ∀ i : grid4.Coords, EltTy.bits .f32 = 32 ∨ (Rect.block (s := S1700000x32) S5000x32.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x32.size a ≤ S100000x32.size a
  hwx5_0 : ∀ i : grid5.Coords, EltTy.bits .f32 = 32 ∨ (Rect.block (s := S100000x32) S10000x32.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x32.size a ≤ S1x32.size a
  hwx5_1 : ∀ i : grid5.Coords, EltTy.bits .f32 = 32 ∨ (Rect.block (s := S1x32) S1x32.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x32.size a ≤ S100000x32.size a
  hwx5_2 : ∀ i : grid5.Coords, EltTy.bits .f32 = 32 ∨ (Rect.block (s := S100000x32) S10000x32.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x32.size a ≤ S100000x32.size a
  hwx6_0 : ∀ i : grid6.Coords, EltTy.bits .f32 = 32 ∨ (Rect.block (s := S100000x32) S10000x32.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S32x16.size a ≤ S32x16.size a
  hwx6_1 : ∀ i : grid6.Coords, EltTy.bits .f32 = 32 ∨ (Rect.block (s := S32x16) S32x16.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S10000x16.size a ≤ S100000x16.size a
  hwx6_2 : ∀ i : grid6.Coords, EltTy.bits .f32 = 32 ∨ (Rect.block (s := S100000x16) S10000x16.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x16.size a ≤ S1700000x16.size a
  hwx7_0 : ∀ i : grid7.Coords, EltTy.bits .f32 = 32 ∨ (Rect.block (s := S1700000x16) S5000x16.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x1.size a ≤ S1700000x1.size a
  hwx7_1 : ∀ i : grid7.Coords, EltTy.bits .f32 = 32 ∨ (Rect.block (s := S1700000x1) S5000x1.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x16.size a ≤ S1700000x16.size a
  hwx7_2 : ∀ i : grid7.Coords, EltTy.bits .f32 = 32 ∨ (Rect.block (s := S1700000x16) S5000x16.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S10000x16.size a ≤ S100000x16.size a
  hwx8_0 : ∀ i : grid8.Coords, EltTy.bits .f32 = 32 ∨ (Rect.block (s := S100000x16) S10000x16.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x16.size a ≤ S1x16.size a
  hwx8_1 : ∀ i : grid8.Coords, EltTy.bits .f32 = 32 ∨ (Rect.block (s := S1x16) S1x16.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S10000x16.size a ≤ S100000x16.size a
  hwx8_2 : ∀ i : grid8.Coords, EltTy.bits .f32 = 32 ∨ (Rect.block (s := S100000x16) S10000x16.size (cc8_transform_2 i) (hinb8_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x2_S2x16_S10000x16_1_0_0_1_n_n : DotDims S10000x2 S2x16 S10000x16 where
  lhsContracting := [1]
  rhsContracting := [0]
  lhsNonContracting := [0]
  rhsNonContracting := [1]
  lhsBatch := []
  rhsBatch := []
  wf := dot_S10000x2_S2x16_S10000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf
def dot_S10000x16_S16x32_S10000x32_1_0_0_1_n_n : DotDims S10000x16 S16x32 S10000x32 where
  lhsContracting := [1]
  rhsContracting := [0]
  lhsNonContracting := [0]
  rhsNonContracting := [1]
  lhsBatch := []
  rhsBatch := []
  wf := dot_S10000x16_S16x32_S10000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S10000x32_S32x16_S10000x16_1_0_0_1_n_n : DotDims S10000x32 S32x16 S10000x16 where
  lhsContracting := [1]
  rhsContracting := [0]
  lhsNonContracting := [0]
  rhsNonContracting := [1]
  lhsBatch := []
  rhsBatch := []
  wf := dot_S10000x32_S32x16_S10000x16_1_0_0_1_n_n_wf

abbrev win0_0 : Pipeline.Window sig grid0 :=
  Pipeline.Window.ofSpec (Memref.whole main_arg0) S10000x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S10000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S5000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v44) S10000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v45) S1x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S10000x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v46) S10000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S16x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v47) S10000x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v54) S5000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v32) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v55) S5000x32.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v58) S10000x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v59) S1x32.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v60) S10000x32.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v60) S10000x32.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg6) S32x16.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v61) S10000x16.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v68) S5000x16.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v32) S5000x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v69) S5000x16.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v72) S10000x16.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v73) S1x16.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v74) S10000x16.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

class Facts : Prop extends Facts₀ where

variable [Facts]
-- ==== ReferenceIdeal.lean ====
abbrev S100000x2 : Shape := ⟨2, ![100000, 2]⟩
abbrev S2x1600000 : Shape := ⟨2, ![2, 1600000]⟩
abbrev S2x16 : Shape := ⟨2, ![2, 16]⟩
abbrev S16 : Shape := ⟨1, ![16]⟩
abbrev S16x32 : Shape := ⟨2, ![16, 32]⟩
abbrev S32 : Shape := ⟨1, ![32]⟩
abbrev S32x16 : Shape := ⟨2, ![32, 16]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x16 : Shape := ⟨2, ![100000, 16]⟩
abbrev S1700000x16 : Shape := ⟨2, ![1700000, 16]⟩
abbrev S1x16 : Shape := ⟨2, ![1, 16]⟩
abbrev S100000x32 : Shape := ⟨2, ![100000, 32]⟩
abbrev S1700000x32 : Shape := ⟨2, ![1700000, 32]⟩
abbrev S1x32 : Shape := ⟨2, ![1, 32]⟩

abbrev nBuf : Space → Nat
  | .hbm => 155
  | .vmem => 0
  | .smem => 0
  | _ => 0

abbrev hbmTy0_0 (i : Nat) : BufTy := match i % 128 with
  | 0 => ⟨S100000x2, .f32⟩
  | 1 => ⟨S2x1600000, .i32⟩
  | 2 => ⟨S2x16, .f32⟩
  | 3 => ⟨S16, .f32⟩
  | 4 => ⟨S16x32, .f32⟩
  | 5 => ⟨S32, .f32⟩
  | 6 => ⟨S32x16, .f32⟩
  | 7 => ⟨S16, .f32⟩
  | 8 => ⟨S100000, .i32⟩
  | 9 => ⟨S1x1600000, .i32⟩
  | 10 => ⟨S1600000, .i32⟩
  | 11 => ⟨S1700000, .i32⟩
  | 12 => ⟨S1x1600000, .i32⟩
  | 13 => ⟨S1600000, .i32⟩
  | 14 => ⟨S1700000, .i32⟩
  | 15 => ⟨S_, .f32⟩
  | 16 => ⟨S1700000, .f32⟩
  | 17 => ⟨S_, .f32⟩
  | 18 => ⟨S100000, .f32⟩
  | 19 => ⟨S1700000x1, .i32⟩
  | 20 => ⟨S100000, .f32⟩
  | 21 => ⟨S_, .f32⟩
  | 22 => ⟨S100000, .f32⟩
  | 23 => ⟨S100000, .i1⟩
  | 24 => ⟨S_, .f32⟩
  | 25 => ⟨S100000, .f32⟩
  | 26 => ⟨S100000, .f32⟩
  | 27 => ⟨S100000, .f32⟩
  | 28 => ⟨S_, .f32⟩
  | 29 => ⟨S_, .f32⟩
  | 30 => ⟨S100000, .f32⟩
  | 31 => ⟨S100000, .f32⟩
  | 32 => ⟨S100000x16, .f32⟩
  | 33 => ⟨S_, .i32⟩
  | 34 => ⟨S1700000, .i32⟩
  | 35 => ⟨S1700000, .i1⟩
  | 36 => ⟨S_, .i32⟩
  | 37 => ⟨S1700000, .i32⟩
  | 38 => ⟨S1700000, .i32⟩
  | 39 => ⟨S1700000, .i32⟩
  | 40 => ⟨S1700000x1, .i32⟩
  | 41 => ⟨S1700000, .f32⟩
  | 42 => ⟨S_, .i32⟩
  | 43 => ⟨S1700000, .i32⟩
  | 44 => ⟨S1700000, .i1⟩
  | 45 => ⟨S_, .i32⟩
  | 46 => ⟨S1700000, .i32⟩
  | 47 => ⟨S1700000, .i32⟩
  | 48 => ⟨S1700000, .i32⟩
  | 49 => ⟨S1700000x1, .i32⟩
  | 50 => ⟨S1700000, .f32⟩
  | 51 => ⟨S1700000, .f32⟩
  | 52 => ⟨S_, .i32⟩
  | 53 => ⟨S1700000, .i32⟩
  | 54 => ⟨S1700000, .i1⟩
  | 55 => ⟨S_, .i32⟩
  | 56 => ⟨S1700000, .i32⟩
  | 57 => ⟨S1700000, .i32⟩
  | 58 => ⟨S1700000, .i32⟩
  | 59 => ⟨S1700000x1, .i32⟩
  | 60 => ⟨S1700000x16, .f32⟩
  | 61 => ⟨S1700000x1, .f32⟩
  | 62 => ⟨S1700000x16, .f32⟩
  | 63 => ⟨S1700000x16, .f32⟩
  | 64 => ⟨S_, .f32⟩
  | 65 => ⟨S100000x16, .f32⟩
  | 66 => ⟨S1700000x1, .i32⟩
  | 67 => ⟨S100000x16, .f32⟩
  | 68 => ⟨S1x16, .f32⟩
  | 69 => ⟨S100000x16, .f32⟩
  | 70 => ⟨S100000x16, .f32⟩
  | 71 => ⟨S_, .f32⟩
  | 72 => ⟨S100000x16, .f32⟩
  | 73 => ⟨S100000x16, .f32⟩
  | 74 => ⟨S100000x32, .f32⟩
  | 75 => ⟨S_, .i32⟩
  | 76 => ⟨S1700000, .i32⟩
  | 77 => ⟨S1700000, .i1⟩
  | 78 => ⟨S_, .i32⟩
  | 79 => ⟨S1700000, .i32⟩
  | 80 => ⟨S1700000, .i32⟩
  | 81 => ⟨S1700000, .i32⟩
  | 82 => ⟨S1700000x1, .i32⟩
  | 83 => ⟨S1700000, .f32⟩
  | 84 => ⟨S_, .i32⟩
  | 85 => ⟨S1700000, .i32⟩
  | 86 => ⟨S1700000, .i1⟩
  | 87 => ⟨S_, .i32⟩
  | 88 => ⟨S1700000, .i32⟩
  | 89 => ⟨S1700000, .i32⟩
  | 90 => ⟨S1700000, .i32⟩
  | 91 => ⟨S1700000x1, .i32⟩
  | 92 => ⟨S1700000, .f32⟩
  | 93 => ⟨S1700000, .f32⟩
  | 94 => ⟨S_, .i32⟩
  | 95 => ⟨S1700000, .i32⟩
  | 96 => ⟨S1700000, .i1⟩
  | 97 => ⟨S_, .i32⟩
  | 98 => ⟨S1700000, .i32⟩
  | 99 => ⟨S1700000, .i32⟩
  | 100 => ⟨S1700000, .i32⟩
  | 101 => ⟨S1700000x1, .i32⟩
  | 102 => ⟨S1700000x32, .f32⟩
  | 103 => ⟨S1700000x1, .f32⟩
  | 104 => ⟨S1700000x32, .f32⟩
  | 105 => ⟨S1700000x32, .f32⟩
  | 106 => ⟨S_, .f32⟩
  | 107 => ⟨S100000x32, .f32⟩
  | 108 => ⟨S1700000x1, .i32⟩
  | 109 => ⟨S100000x32, .f32⟩
  | 110 => ⟨S1x32, .f32⟩
  | 111 => ⟨S100000x32, .f32⟩
  | 112 => ⟨S100000x32, .f32⟩
  | 113 => ⟨S_, .f32⟩
  | 114 => ⟨S100000x32, .f32⟩
  | 115 => ⟨S100000x32, .f32⟩
  | 116 => ⟨S100000x16, .f32⟩
  | 117 => ⟨S_, .i32⟩
  | 118 => ⟨S1700000, .i32⟩
  | 119 => ⟨S1700000, .i1⟩
  | 120 => ⟨S_, .i32⟩
  | 121 => ⟨S1700000, .i32⟩
  | 122 => ⟨S1700000, .i32⟩
  | 123 => ⟨S1700000, .i32⟩
  | 124 => ⟨S1700000x1, .i32⟩
  | 125 => ⟨S1700000, .f32⟩
  | 126 => ⟨S_, .i32⟩
  | 127 => ⟨S1700000, .i32⟩
  | _ => ⟨S100000x2, .f32⟩

abbrev hbmTy0_1 (i : Nat) : BufTy := match i % 128 with
  | 0 => ⟨S1700000, .i1⟩
  | 1 => ⟨S_, .i32⟩
  | 2 => ⟨S1700000, .i32⟩
  | 3 => ⟨S1700000, .i32⟩
  | 4 => ⟨S1700000, .i32⟩
  | 5 => ⟨S1700000x1, .i32⟩
  | 6 => ⟨S1700000, .f32⟩
  | 7 => ⟨S1700000, .f32⟩
  | 8 => ⟨S_, .i32⟩
  | 9 => ⟨S1700000, .i32⟩
  | 10 => ⟨S1700000, .i1⟩
  | 11 => ⟨S_, .i32⟩
  | 12 => ⟨S1700000, .i32⟩
  | 13 => ⟨S1700000, .i32⟩
  | 14 => ⟨S1700000, .i32⟩
  | 15 => ⟨S1700000x1, .i32⟩
  | 16 => ⟨S1700000x16, .f32⟩
  | 17 => ⟨S1700000x1, .f32⟩
  | 18 => ⟨S1700000x16, .f32⟩
  | 19 => ⟨S1700000x16, .f32⟩
  | 20 => ⟨S_, .f32⟩
  | 21 => ⟨S100000x16, .f32⟩
  | 22 => ⟨S1700000x1, .i32⟩
  | 23 => ⟨S100000x16, .f32⟩
  | 24 => ⟨S1x16, .f32⟩
  | 25 => ⟨S100000x16, .f32⟩
  | 26 => ⟨S100000x16, .f32⟩
  | _ => ⟨S100000x2, .f32⟩

abbrev hbmTy (i : Nat) : BufTy := match i / 128 with
  | 0 => hbmTy0_0 i
  | 1 => hbmTy0_1 i
  | _ => ⟨S100000x2, .f32⟩

abbrev bufTy : (tb : Table) → Fin (tcTables nBuf tb) → BufTy
  | .hbm, ⟨i, _⟩ => hbmTy i
  | _, _ => ⟨S100000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_v17 : Ref sig .tc := ⟨.hbm, 32, rfl⟩
abbrev main_c : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_c_6 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_c_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_c_12 : Ref sig .tc := ⟨.hbm, 84, rfl⟩
abbrev main_v58 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_c_14 : Ref sig .tc := ⟨.hbm, 94, rfl⟩
abbrev main_v66 : Ref sig .tc := ⟨.hbm, 95, rfl⟩
abbrev main_v67 : Ref sig .tc := ⟨.hbm, 96, rfl⟩
abbrev main_c_15 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_16 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_call2_cst : Ref sig .tc := ⟨.hbm, 113, rfl⟩
abbrev main_call2_v0 : Ref sig .tc := ⟨.hbm, 114, rfl⟩
abbrev main_v82 : Ref sig .tc := ⟨.hbm, 115, rfl⟩
abbrev main_v83 : Ref sig .tc := ⟨.hbm, 116, rfl⟩
abbrev main_c_17 : Ref sig .tc := ⟨.hbm, 117, rfl⟩
abbrev main_v84 : Ref sig .tc := ⟨.hbm, 118, rfl⟩
abbrev main_v85 : Ref sig .tc := ⟨.hbm, 119, rfl⟩
abbrev main_c_18 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_c_19 : Ref sig .tc := ⟨.hbm, 126, rfl⟩
abbrev main_v91 : Ref sig .tc := ⟨.hbm, 127, rfl⟩
abbrev main_v92 : Ref sig .tc := ⟨.hbm, 128, rfl⟩
abbrev main_c_20 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_c_21 : Ref sig .tc := ⟨.hbm, 136, rfl⟩
abbrev main_v99 : Ref sig .tc := ⟨.hbm, 137, rfl⟩
abbrev main_v100 : Ref sig .tc := ⟨.hbm, 138, rfl⟩
abbrev main_c_22 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_cst_23 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1700000x1_S1700000_n_0_0_1_wf : ScatterDims.WF S100000 S1700000x1 S1700000 [] [0] [0] 1
  dot_S100000x2_S2x16_S100000x16_1_0_0_1_n_n_wf : DotDims.WF S100000x2 S2x16 S100000x16 [1] [0] [0] [1] [] []
  gather_S100000_S1700000x1_S1700000_n_0_n_n_0_1_1_wf : GatherDims.WF S100000 S1700000x1 S1700000 [] [0] [] [0] [] 1 ![1]
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1
  dot_S100000x16_S16x32_S100000x32_1_0_0_1_n_n_wf : DotDims.WF S100000x16 S16x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S100000x32_S32x16_S100000x16_1_0_0_1_n_n_wf : DotDims.WF S100000x32 S32x16 S100000x16 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S100000x2_S2x16_S100000x16_1_0_0_1_n_n : DotDims S100000x2 S2x16 S100000x16 where
  lhsContracting := [1]
  rhsContracting := [0]
  lhsNonContracting := [0]
  rhsNonContracting := [1]
  lhsBatch := []
  rhsBatch := []
  wf := dot_S100000x2_S2x16_S100000x16_1_0_0_1_n_n_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf
def dot_S100000x16_S16x32_S100000x32_1_0_0_1_n_n : DotDims S100000x16 S16x32 S100000x32 where
  lhsContracting := [1]
  rhsContracting := [0]
  lhsNonContracting := [0]
  rhsNonContracting := [1]
  lhsBatch := []
  rhsBatch := []
  wf := dot_S100000x16_S16x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf

class Facts : Prop extends Facts₀ where

variable [Facts]
-- ==== Proof.KernelRun.lean ====
/-
  The idealized kernel's whole run with its result named.

  The program is nine kernel launches among stretches of host operations.  Its execution is followed segment by
  segment: each stretch of host operations updates the buffers by its operations' results, each launch replaces its
  output array by what the launch's grid points wrote back and leaves every other buffer alone.  So when the program
  ends, every buffer holds what this chain of updates, started from the launch memory, gives at that buffer — in
  particular the result buffer does, and each argument buffer holds what it held at the start.
-/
import proofs.«173124_j13924283973778_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer then holds the last
    boundary's contents at that buffer, and the argument buffers are unchanged. -/
theorem run : θ_run defs (onTc (τ := τ) (main (F := F))) ⟨m, fun _ => 0, ρ⟩ (fun r => ∀ c : Dev nD,
      r.2.mem ((c.tc : Thread nD τ).loc main_v74) = W18 m ρ c (Proc.devRef .tc main_v74)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h c =>
      ⟨h c _ (mem_uc main_v74 (by decide)),
       (h c _ (mem_uc main_arg0 (by decide))).trans (W18_main_arg0 m ρ c),
       (h c _ (mem_uc main_arg1 (by decide))).trans (W18_main_arg1 m ρ c),
       (h c _ (mem_uc main_arg2 (by decide))).trans (W18_main_arg2 m ρ c),
       (h c _ (mem_uc main_arg3 (by decide))).trans (W18_main_arg3 m ρ c),
       (h c _ (mem_uc main_arg4 (by decide))).trans (W18_main_arg4 m ρ c),
       (h c _ (mem_uc main_arg5 (by decide))).trans (W18_main_arg5 m ρ c),
       (h c _ (mem_uc main_arg6 (by decide))).trans (W18_main_arg6 m ρ c),
       (h c _ (mem_uc main_arg7 (by decide))).trans (W18_main_arg7 m ρ c)⟩)

end Cert.KernelIdeal.Named

end
-- ==== Proof.Spec.lean ====
/-
  A graph-convolution layer, piece by piece, as functions of whole arrays over the extended reals.

  One layer takes node features `x : [M, K]`, weights `w : [K, N]`, a bias and, per directed edge, a source node, an
  arrival node and a weight.  It forms `x · w`, gathers the product's rows along the edges' sources, scales each
  gathered row by its edge's weight, adds the scaled rows into their arrival nodes, adds the bias, and (except in the
  last layer) clamps at zero.  The gather and the accumulation are the same host operations in both programs; the three
  other steps are the ones stated here, each at an index:

  * `lin x w` at `(r, j)` is the sum over `k` of `x (r, k) * w (k, j)`;
  * `scale hs nrm` at `(e, j)` is `hs (e, j) * nrm (e, 0)`, the edge weights kept as an `[E, 1]` column;
  * `biasAdd agg b` at `(r, j)` is `agg (r, j) + b (0, j)`, the bias kept as a `[1, N]` row, and `biasClamp` is the
    larger of that and the zero word's value.
-/
import Idealize.ShloMosaic.Lib.ValueIdx
import Idealize.ShloMosaic.PureOps.Ideal

noncomputable section

namespace Cert.Gcn

open Idealize.ShloMosaic Idealize.ShloMosaic.ValueIdx

/-- The product of node features with a weight matrix, entry by entry. -/
def lin {M K N : ℕ} (x : FVec Ideal ⟨2, ![M, K]⟩ .f32) (w : FVec Ideal ⟨2, ![K, N]⟩ .f32) : FVec Ideal ⟨2, ![M, N]⟩ .f32 :=
  fun i => ∑ k : Fin K, x (ix2 (i 0) k) * w (ix2 k (i 1))

/-- Each edge's gathered row times that edge's weight. -/
def scale {E N : ℕ} (hs : FVec Ideal ⟨2, ![E, N]⟩ .f32) (nrm : FVec Ideal ⟨2, ![E, 1]⟩ .f32) : FVec Ideal ⟨2, ![E, N]⟩ .f32 :=
  fun i => hs i * nrm (ix2 (i 0) (0 : Fin 1))

/-- The accumulated rows plus the bias row. -/
def biasAdd {M N : ℕ} (agg : FVec Ideal ⟨2, ![M, N]⟩ .f32) (b : FVec Ideal ⟨2, ![1, N]⟩ .f32) : FVec Ideal ⟨2, ![M, N]⟩ .f32 :=
  fun i => agg i + b (ix2 (0 : Fin 1) (i 1))

/-- The accumulated rows plus the bias row, clamped below at the value of the zero word. -/
def biasClamp {M N : ℕ} (agg : FVec Ideal ⟨2, ![M, N]⟩ .f32) (b : FVec Ideal ⟨2, ![1, N]⟩ .f32) : FVec Ideal ⟨2, ![M, N]⟩ .f32 :=
  fun i => max (agg i + b (ix2 (0 : Fin 1) (i 1))) (Ideal.ofBits .f32 0x00000000#32)

theorem lin_apply {M K N : ℕ} (x : FVec Ideal ⟨2, ![M, K]⟩ .f32) (w : FVec Ideal ⟨2, ![K, N]⟩ .f32) (r : Fin M) (j : Fin N) :
    lin x w (ix2 r j) = ∑ k : Fin K, x (ix2 r k) * w (ix2 k j) := rfl

theorem scale_apply {E N : ℕ} (hs : FVec Ideal ⟨2, ![E, N]⟩ .f32) (nrm : FVec Ideal ⟨2, ![E, 1]⟩ .f32) (e : Fin E) (j : Fin N) :
    scale hs nrm (ix2 e j) = hs (ix2 e j) * nrm (ix2 e (0 : Fin 1)) := rfl

theorem biasAdd_apply {M N : ℕ} (agg : FVec Ideal ⟨2, ![M, N]⟩ .f32) (b : FVec Ideal ⟨2, ![1, N]⟩ .f32) (r : Fin M) (j : Fin N) :
    biasAdd agg b (ix2 r j) = agg (ix2 r j) + b (ix2 (0 : Fin 1) j) := rfl

theorem biasClamp_apply {M N : ℕ} (agg : FVec Ideal ⟨2, ![M, N]⟩ .f32) (b : FVec Ideal ⟨2, ![1, N]⟩ .f32) (r : Fin M) (j : Fin N) :
    biasClamp agg b (ix2 r j) = max (agg (ix2 r j) + b (ix2 (0 : Fin 1) j)) (Ideal.ofBits .f32 0x00000000#32) := rfl

end Cert.Gcn

end
-- ==== Proof.LibRowOps.lean ====
/-
  Rows and columns of rank-2 vectors read at an index, at the ideal values (extended reals, exact operations).

  * the keep-dimensions column forms: a length-`a` vector cast to `[a, 1]`, and an `[a, 1]` column broadcast over
    `b` lanes, read at `(p, c)`;
  * a bias row: a length-`b` vector cast to `[1, b]` and broadcast over `a` rows reads, at `(p, c)`, its entry `c`;
  * the sum over the lanes of a row (`vector.multi_reduction <add>` over axis 1 of an `[a, b]` vector into the zero
    accumulator) is the `Fin b`-indexed sum of the row's entries;
  * a plain `M×K` by `K×N` matrix product into the zero accumulator is, at `(r, j)`, the sum over `k : Fin K` of
    `lhs (r, k) * rhs (k, j)`, whatever the operands' float formats;
  * a sum over `Fin (m + n)` splits into the sums over its first `m` and its last `n` indices.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibRowOps

open Idealize.ShloMosaic Idealize.ShloMosaic.ValueIdx

variable {α : Type}

/-- A length-`a` vector cast to an `[a, 1]` column reads, at `(p, u)`, its entry `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast over `b` lanes reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A bias row: a length-`b` vector cast to `[1, b]` and broadcast over `a` rows reads, at `(p, c)`, its entry `c`. -/
theorem biasRow_apply {a b : ℕ} (x : (⟨1, ![b]⟩ : Shape).Idx → α) (h : (⟨1, ![b]⟩ : Shape).ShapeCasts ⟨2, ![1, b]⟩)
    (h' : (⟨2, ![1, b]⟩ : Shape).Broadcasts ⟨2, ![a, b]⟩) (p : Fin a) (c : Fin b) :
    broadcastTo ⟨2, ![a, b]⟩ (shapeCast ⟨2, ![1, b]⟩ x h) h' (ix2 p c) = x (ix1 c) :=
  (broadcastTo_1b_ab_apply _ h' p c).trans (shapeCast_a_1a_apply x h 0 c)

/-- A keep-dimensions column: a length-`a` vector `s` cast to `[a, 1]`, mapped entry by entry by `f`, and broadcast over
    `b` lanes reads, at `(p, c)`, `f` of the entry `p`. -/
theorem keepCol_apply {β : Type} {a b : ℕ} (x : (⟨1, ![a]⟩ : Shape).Idx → α) (h : (⟨1, ![a]⟩ : Shape).ShapeCasts ⟨2, ![a, 1]⟩)
    (f : α → β) (h' : (⟨2, ![a, 1]⟩ : Shape).Broadcasts ⟨2, ![a, b]⟩) (p : Fin a) (c : Fin b) :
    broadcastTo ⟨2, ![a, b]⟩ (fun i => f (shapeCast ⟨2, ![a, 1]⟩ x h i)) h' (ix2 p c) = f (x (ix1 p)) :=
  (broadcastTo_a1_ab_apply _ h' p c).trans (congrArg f (shapeCast_a_a1_apply x h p 0))

/-- The sum over the lanes of row `p` of an `[a, b]` vector, into the zero accumulator, at the ideal values. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src (funext fun ax => Fin.ext ?_)
  match ax with
  | ⟨0, _⟩ => rfl
  | ⟨1, _⟩ => rfl

/-- In a plain product the left operand's index at output `(r, j)` keeps the output row on its first axis; -/
theorem plain_lhs0 (M K N : ℕ) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch by simp [DotDims.plain]),
    dif_pos (show (0 : Fin 2) ∈ (DotDims.plain M K N).lhsNonContracting by simp [DotDims.plain])]
  rfl
/-- and the right operand's keeps the output lane on its second. -/
theorem plain_rhs1 (M K N : ℕ) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch by simp [DotDims.plain]),
    dif_pos (show (1 : Fin 2) ∈ (DotDims.plain M K N).rhsNonContracting by simp [DotDims.plain])]
  rfl

/-- A plain `M×K` by `K×N` product into the zero accumulator, at `(r, j)`: the sum over `k` of `lhs (r, k) * rhs (k, j)`. -/
theorem matmul_plain_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (r : Fin M) (j : Fin N) :
    FloatOps.matmul d prec lhs rhs (constant ⟨2, ![M, N]⟩ .f32 0x00000000#32) (ix2 r j)
      = ∑ k : Fin K, lhs (ix2 r k) * rhs (ix2 k j) := by
  subst hd
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r j) ((contrEquiv1 (DotDims.plain M K N) K rfl rfl).symm k) = ix2 r k :=
    funext fun ax => Fin.ext (by
      match ax with
      | ⟨0, _⟩ => exact plain_lhs0 M K N _ _
      | ⟨1, _⟩ => exact ((DotDims.plain M K N).lhsIdx_val_of_single (cl := (1 : Fin 2)) rfl _ _).trans hk)
  have er : (DotDims.plain M K N).rhsIdx (ix2 r j) ((contrEquiv1 (DotDims.plain M K N) K rfl rfl).symm k) = ix2 k j :=
    funext fun ax => Fin.ext (by
      match ax with
      | ⟨0, _⟩ => exact ((DotDims.plain M K N).rhsIdx_val_of_single (cr := (0 : Fin 2)) rfl _ _).trans hk
      | ⟨1, _⟩ => exact plain_rhs1 M K N _ _)
  rw [el, er]

/-- A sum over `Fin (m + n)` is the sum over its first `m` indices plus the sum over its last `n`. -/
theorem sum_fin_split {M : Type} [AddCommMonoid M] (m n : ℕ) (f : Fin (m + n) → M) :
    ∑ k, f k = (∑ a : Fin m, f ⟨a.val, by omega⟩) + ∑ a : Fin n, f ⟨m + a.val, by omega⟩ :=
  Fin.sum_univ_add f

end Cert.LibRowOps

end
-- ==== Proof.LinearOne.lean ====
/-
  Launch 0 of the program: the product of the node features with a weight matrix, 10 blocks of 10000 rows.

  Grid point `t` loads rows `10000 t … 10000 t + 9999` of the features and the whole weight matrix, multiplies them
  (the operands' change of float format is the identity on the ideal values, and the product accumulates into zero),
  and writes the `10000 × 16` block back at the same rows.  Entry `(r, j)` of a block's product only involves row `r`
  of the block, so the blocks are the restrictions of ONE array — the whole product — and since the 10 blocks cover all
  100000 rows, the output array ends at that product.
-/
import proofs.«173124_j13924283973778_2_alg».proof.Proof.Gen.KernelIdeal.Frame
import proofs.«173124_j13924283973778_2_alg».proof.Proof.Spec
import proofs.«173124_j13924283973778_2_alg».proof.Proof.LibRowOps
import Idealize.ShloMosaic.Lib.Pipeline.Value

set_option maxRecDepth 16384

noncomputable section

namespace Cert.KernelIdeal.LinearOne

open Cert.KernelIdeal Cert.KernelIdeal.Gen
open Idealize.ShloMosaic Idealize.ShloMosaic.TcCoe Idealize.ShloMosaic.ValueIdx Idealize.SL.Sem

variable (V : (c : Dev nD) → (b : Ref sig .tc) → Buf (Elt Ideal) ((c : Thread nD τ).loc b))

theorem zeroOff : (![0, 0] : Fin 2 → Nat) = fun _ => 0 := funext fun a => by fin_cases a <;> rfl

/-- The body's arithmetic on a pair of loaded blocks is the product of the two blocks. -/
theorem body_eq (x0 : Vec Ideal S10000x2 .f32) (x1 : Vec Ideal S2x16 .f32) :
    k0_pay1 x0 x1 = Gcn.lin (M := 10000) (K := 2) (N := 16) x0 x1 := by
  funext y
  rw [eq_ix2 y]
  unfold k0_pay1
  exact Cert.LibRowOps.matmul_plain_apply dot_S10000x2_S2x16_S10000x16_1_0_0_1_n_n rfl none _ _ (y 0) (y 1)

/-- Where each window's block sits at point `t`: the feature and output blocks at block-row `t`, the weights whole. -/
theorem blockIndex : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the whole product. -/
theorem flushed_eq (c : Dev nD) (t : Fin cfg0.N) :
    (dat0 V c).flushed 2 t
      = ((cfg0.win 2).blk t).view.read (Elt Ideal) (Gcn.lin (M := 100000) (K := 2) (N := 16) (V c main_arg0) (V c main_arg2)) := by
  show (cfg0.win 2).cut (grid0.coords t) ((dat0 V c).after 2 t) = _
  rw [after0_2]
  unfold out0_2
  rw [View.canon_unit_zero zeroOff]
  simp only [View.ld_unit_zero (S := S10000x2) zeroOff, View.ld_unit_zero (S := S2x16) zeroOff]
  rw [body_eq]
  obtain ⟨e0, e1, e2, e3, e4, e5⟩ := blockIndex t
  funext j
  show Gcn.lin (M := 10000) (K := 2) (N := 16) (iblk0 V c 0 t) (iblk0 V c 1 t) j
      = Gcn.lin (M := 100000) (K := 2) (N := 16) (V c main_arg0) (V c main_arg2) (((cfg0.win 2).blk t).view.emb j)
  unfold Gcn.lin
  refine Finset.sum_congr rfl fun k _ => ?_
  have hA : iblk0 V c 0 t (ix2 (j 0) k) = V c main_arg0 (ix2 ((((cfg0.win 2).blk t).view.emb j) 0) k) := by
    show V c main_arg0 (((cfg0.win 0).blk t).view.emb (ix2 (j 0) k)) = _
    refine congrArg _ (funext fun a => Fin.ext ?_)
    match a with
    | ⟨0, _⟩ =>
      show win0_0.index t (0 : Fin 2) * 10000 + 1 * (j 0).val = win0_2.index t (0 : Fin 2) * 10000 + 1 * (j 0).val
      omega
    | ⟨1, _⟩ =>
      show win0_0.index t (1 : Fin 2) * 2 + 1 * k.val = k.val
      omega
  have hW : iblk0 V c 1 t (ix2 k (j 1)) = V c main_arg2 (ix2 k ((((cfg0.win 2).blk t).view.emb j) 1)) := by
    show V c main_arg2 (((cfg0.win 1).blk t).view.emb (ix2 k (j 1))) = _
    refine congrArg _ (funext fun a => Fin.ext ?_)
    match a with
    | ⟨0, _⟩ =>
      show win0_1.index t (0 : Fin 2) * 2 + 1 * k.val = k.val
      omega
    | ⟨1, _⟩ =>
      show win0_1.index t (1 : Fin 2) * 16 + 1 * (j 1).val = win0_2.index t (1 : Fin 2) * 16 + 1 * (j 1).val
      omega
  rw [hA, hW]

/-- An index of the output array lies in point `t`'s block iff each coordinate is in the block's range on its axis. -/
theorem mem_block (t : Fin cfg0.N) (i : S100000x16.Idx) :
    i ∈ ((cfg0.win 2).blk t).view.set ↔ ∀ a : Fin 2, win0_2.index t a * S10000x16.size a ≤ (i a).val ∧ (i a).val < win0_2.index t a * S10000x16.size a + S10000x16.size a := by
  show i ∈ ((View.whole main_v33).slice (win0_2.rect t)).set ↔ _
  rw [View.set_slice_whole, Rect.mem_set_unit]
  exact Iff.rfl

/-- Every row belongs to the block of the point numbered by the row's quotient by 10000. -/
theorem covered (i : S100000x16.Idx) : ∃ t : Fin cfg0.N, (cfg0.win 2).flush t = true ∧ i ∈ ((cfg0.win 2).blk t).view.set := by
  have hi0 : (i 0).val < 100000 := (i 0).isLt
  have hi1 : (i 1).val < 16 := (i 1).isLt
  have hN : cfg0.N = 10 := N_0
  let t : Fin cfg0.N := ⟨(i 0).val / 10000, by rw [hN]; omega⟩
  obtain ⟨e0, e1, e2, e3, e4, e5⟩ := blockIndex t
  have ht : t.val = (i 0).val / 10000 := rfl
  refine ⟨t, flush0_2 t, ?_⟩
  rw [mem_block]
  intro a
  match a with
  | ⟨0, _⟩ =>
    show win0_2.index t (0 : Fin 2) * 10000 ≤ (i 0).val ∧ (i 0).val < win0_2.index t (0 : Fin 2) * 10000 + 10000
    omega
  | ⟨1, _⟩ =>
    show win0_2.index t (1 : Fin 2) * 16 ≤ (i 1).val ∧ (i 1).val < win0_2.index t (1 : Fin 2) * 16 + 16
    omega

/-- The output array after the launch is the whole product of the arrays the launch found. -/
theorem final (c : Dev nD) :
    (dat0 V c).arrAt 2 cfg0.N = Gcn.lin (M := 100000) (K := 2) (N := 16) (V c main_arg0) (V c main_arg2) :=
  (dat0 V c).arrAt_eq_of_cover 2 _ (fun t _ => flushed_eq V c t) covered

end Cert.KernelIdeal.LinearOne

end
-- ==== Proof.LinearTwo.lean ====
/-
  Launch 3 of the program: the product of the node features with a weight matrix, 10 blocks of 10000 rows.

  Grid point `t` loads rows `10000 t … 10000 t + 9999` of the features and the whole weight matrix, multiplies them
  (the operands' change of float format is the identity on the ideal values, and the product accumulates into zero),
  and writes the `10000 × 32` block back at the same rows.  Entry `(r, j)` of a block's product only involves row `r`
  of the block, so the blocks are the restrictions of ONE array — the whole product — and since the 10 blocks cover all
  100000 rows, the output array ends at that product.
-/
import proofs.«173124_j13924283973778_2_alg».proof.Proof.Gen.KernelIdeal.Frame
import proofs.«173124_j13924283973778_2_alg».proof.Proof.Spec
import proofs.«173124_j13924283973778_2_alg».proof.Proof.LibRowOps
import Idealize.ShloMosaic.Lib.Pipeline.Value

set_option maxRecDepth 16384

noncomputable section

namespace Cert.KernelIdeal.LinearTwo

open Cert.KernelIdeal Cert.KernelIdeal.Gen
open Idealize.ShloMosaic Idealize.ShloMosaic.TcCoe Idealize.ShloMosaic.ValueIdx Idealize.SL.Sem

variable (V : (c : Dev nD) → (b : Ref sig .tc) → Buf (Elt Ideal) ((c : Thread nD τ).loc b))

theorem zeroOff : (![0, 0] : Fin 2 → Nat) = fun _ => 0 := funext fun a => by fin_cases a <;> rfl

/-- The body's arithmetic on a pair of loaded blocks is the product of the two blocks. -/
theorem body_eq (x0 : Vec Ideal S10000x16 .f32) (x1 : Vec Ideal S16x32 .f32) :
    k3_pay1 x0 x1 = Gcn.lin (M := 10000) (K := 16) (N := 32) x0 x1 := by
  funext y
  rw [eq_ix2 y]
  unfold k3_pay1
  try simp only [shapeCast_self]
  exact Cert.LibRowOps.matmul_plain_apply dot_S10000x16_S16x32_S10000x32_1_0_0_1_n_n rfl none _ _ (y 0) (y 1)

/-- Where each window's block sits at point `t`: the feature and output blocks at block-row `t`, the weights whole. -/
theorem blockIndex : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of the whole product. -/
theorem flushed_eq (c : Dev nD) (t : Fin cfg3.N) :
    (dat3 V c).flushed 2 t
      = ((cfg3.win 2).blk t).view.read (Elt Ideal) (Gcn.lin (M := 100000) (K := 16) (N := 32) (V c main_v46) (V c main_arg4)) := by
  show (cfg3.win 2).cut (grid3.coords t) ((dat3 V c).after 2 t) = _
  rw [after3_2]
  unfold out3_2
  rw [View.canon_unit_zero zeroOff]
  simp only [View.ld_unit_zero (S := S10000x16) zeroOff, View.ld_unit_zero (S := S16x32) zeroOff]
  rw [body_eq]
  obtain ⟨e0, e1, e2, e3, e4, e5⟩ := blockIndex t
  funext j
  show Gcn.lin (M := 10000) (K := 16) (N := 32) (iblk3 V c 0 t) (iblk3 V c 1 t) j
      = Gcn.lin (M := 100000) (K := 16) (N := 32) (V c main_v46) (V c main_arg4) (((cfg3.win 2).blk t).view.emb j)
  unfold Gcn.lin
  refine Finset.sum_congr rfl fun k _ => ?_
  have hA : iblk3 V c 0 t (ix2 (j 0) k) = V c main_v46 (ix2 ((((cfg3.win 2).blk t).view.emb j) 0) k) := by
    show V c main_v46 (((cfg3.win 0).blk t).view.emb (ix2 (j 0) k)) = _
    refine congrArg _ (funext fun a => Fin.ext ?_)
    match a with
    | ⟨0, _⟩ =>
      show win3_0.index t (0 : Fin 2) * 10000 + 1 * (j 0).val = win3_2.index t (0 : Fin 2) * 10000 + 1 * (j 0).val
      omega
    | ⟨1, _⟩ =>
      show win3_0.index t (1 : Fin 2) * 16 + 1 * k.val = k.val
      omega
  have hW : iblk3 V c 1 t (ix2 k (j 1)) = V c main_arg4 (ix2 k ((((cfg3.win 2).blk t).view.emb j) 1)) := by
    show V c main_arg4 (((cfg3.win 1).blk t).view.emb (ix2 k (j 1))) = _
    refine congrArg _ (funext fun a => Fin.ext ?_)
    match a with
    | ⟨0, _⟩ =>
      show win3_1.index t (0 : Fin 2) * 16 + 1 * k.val = k.val
      omega
    | ⟨1, _⟩ =>
      show win3_1.index t (1 : Fin 2) * 32 + 1 * (j 1).val = win3_2.index t (1 : Fin 2) * 32 + 1 * (j 1).val
      omega
  rw [hA, hW]

/-- An index of the output array lies in point `t`'s block iff each coordinate is in the block's range on its axis. -/
theorem mem_block (t : Fin cfg3.N) (i : S100000x32.Idx) :
    i ∈ ((cfg3.win 2).blk t).view.set ↔ ∀ a : Fin 2, win3_2.index t a * S10000x32.size a ≤ (i a).val ∧ (i a).val < win3_2.index t a * S10000x32.size a + S10000x32.size a := by
  show i ∈ ((View.whole main_v47).slice (win3_2.rect t)).set ↔ _
  rw [View.set_slice_whole, Rect.mem_set_unit]
  exact Iff.rfl

/-- Every row belongs to the block of the point numbered by the row's quotient by 10000. -/
theorem covered (i : S100000x32.Idx) : ∃ t : Fin cfg3.N, (cfg3.win 2).flush t = true ∧ i ∈ ((cfg3.win 2).blk t).view.set := by
  have hi0 : (i 0).val < 100000 := (i 0).isLt
  have hi1 : (i 1).val < 32 := (i 1).isLt
  have hN : cfg3.N = 10 := N_3
  let t : Fin cfg3.N := ⟨(i 0).val / 10000, by rw [hN]; omega⟩
  obtain ⟨e0, e1, e2, e3, e4, e5⟩ := blockIndex t
  have ht : t.val = (i 0).val / 10000 := rfl
  refine ⟨t, flush3_2 t, ?_⟩
  rw [mem_block]
  intro a
  match a with
  | ⟨0, _⟩ =>
    show win3_2.index t (0 : Fin 2) * 10000 ≤ (i 0).val ∧ (i 0).val < win3_2.index t (0 : Fin 2) * 10000 + 10000
    omega
  | ⟨1, _⟩ =>
    show win3_2.index t (1 : Fin 2) * 32 ≤ (i 1).val ∧ (i 1).val < win3_2.index t (1 : Fin 2) * 32 + 32
    omega

/-- The output array after the launch is the whole product of the arrays the launch found. -/
theorem final (c : Dev nD) :
    (dat3 V c).arrAt 2 cfg3.N = Gcn.lin (M := 100000) (K := 16) (N := 32) (V c main_v46) (V c main_arg4) :=
  (dat3 V c).arrAt_eq_of_cover 2 _ (fun t _ => flushed_eq V c t) covered

end Cert.KernelIdeal.LinearTwo

end
-- ==== Proof.LinearThree.lean ====
/-
  Launch 6 of the program: the product of the node features with a weight matrix, 10 blocks of 10000 rows.

  Grid point `t` loads rows `10000 t … 10000 t + 9999` of the features and the whole weight matrix, multiplies them
  (the operands' change of float format is the identity on the ideal values, and the product accumulates into zero),
  and writes the `10000 × 16` block back at the same rows.  Entry `(r, j)` of a block's product only involves row `r`
  of the block, so the blocks are the restrictions of ONE array — the whole product — and since the 10 blocks cover all
  100000 rows, the output array ends at that product.
-/
import proofs.«173124_j13924283973778_2_alg».proof.Proof.Gen.KernelIdeal.Frame
import proofs.«173124_j13924283973778_2_alg».proof.Proof.Spec
import proofs.«173124_j13924283973778_2_alg».proof.Proof.LibRowOps
import Idealize.ShloMosaic.Lib.Pipeline.Value

set_option maxRecDepth 16384

noncomputable section

namespace Cert.KernelIdeal.LinearThree

open Cert.KernelIdeal Cert.KernelIdeal.Gen
open Idealize.ShloMosaic Idealize.ShloMosaic.TcCoe Idealize.ShloMosaic.ValueIdx Idealize.SL.Sem

variable (V : (c : Dev nD) → (b : Ref sig .tc) → Buf (Elt Ideal) ((c : Thread nD τ).loc b))

theorem zeroOff : (![0, 0] : Fin 2 → Nat) = fun _ => 0 := funext fun a => by fin_cases a <;> rfl

/-- The body's arithmetic on a pair of loaded blocks is the product of the two blocks. -/
theorem body_eq (x0 : Vec Ideal S10000x32 .f32) (x1 : Vec Ideal S32x16 .f32) :
    k6_pay1 x0 x1 = Gcn.lin (M := 10000) (K := 32) (N := 16) x0 x1 := by
  funext y
  rw [eq_ix2 y]
  unfold k6_pay1
  try simp only [shapeCast_self]
  exact Cert.LibRowOps.matmul_plain_apply dot_S10000x32_S32x16_S10000x16_1_0_0_1_n_n rfl none _ _ (y 0) (y 1)

/-- Where each window's block sits at point `t`: the feature and output blocks at block-row `t`, the weights whole. -/
theorem blockIndex : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- What point `t` writes back is block `t` of the whole product. -/
theorem flushed_eq (c : Dev nD) (t : Fin cfg6.N) :
    (dat6 V c).flushed 2 t
      = ((cfg6.win 2).blk t).view.read (Elt Ideal) (Gcn.lin (M := 100000) (K := 32) (N := 16) (V c main_v60) (V c main_arg6)) := by
  show (cfg6.win 2).cut (grid6.coords t) ((dat6 V c).after 2 t) = _
  rw [after6_2]
  unfold out6_2
  rw [View.canon_unit_zero zeroOff]
  simp only [View.ld_unit_zero (S := S10000x32) zeroOff, View.ld_unit_zero (S := S32x16) zeroOff]
  rw [body_eq]
  obtain ⟨e0, e1, e2, e3, e4, e5⟩ := blockIndex t
  funext j
  show Gcn.lin (M := 10000) (K := 32) (N := 16) (iblk6 V c 0 t) (iblk6 V c 1 t) j
      = Gcn.lin (M := 100000) (K := 32) (N := 16) (V c main_v60) (V c main_arg6) (((cfg6.win 2).blk t).view.emb j)
  unfold Gcn.lin
  refine Finset.sum_congr rfl fun k _ => ?_
  have hA : iblk6 V c 0 t (ix2 (j 0) k) = V c main_v60 (ix2 ((((cfg6.win 2).blk t).view.emb j) 0) k) := by
    show V c main_v60 (((cfg6.win 0).blk t).view.emb (ix2 (j 0) k)) = _
    refine congrArg _ (funext fun a => Fin.ext ?_)
    match a with
    | ⟨0, _⟩ =>
      show win6_0.index t (0 : Fin 2) * 10000 + 1 * (j 0).val = win6_2.index t (0 : Fin 2) * 10000 + 1 * (j 0).val
      omega
    | ⟨1, _⟩ =>
      show win6_0.index t (1 : Fin 2) * 32 + 1 * k.val = k.val
      omega
  have hW : iblk6 V c 1 t (ix2 k (j 1)) = V c main_arg6 (ix2 k ((((cfg6.win 2).blk t).view.emb j) 1)) := by
    show V c main_arg6 (((cfg6.win 1).blk t).view.emb (ix2 k (j 1))) = _
    refine congrArg _ (funext fun a => Fin.ext ?_)
    match a with
    | ⟨0, _⟩ =>
      show win6_1.index t (0 : Fin 2) * 32 + 1 * k.val = k.val
      omega
    | ⟨1, _⟩ =>
      show win6_1.index t (1 : Fin 2) * 16 + 1 * (j 1).val = win6_2.index t (1 : Fin 2) * 16 + 1 * (j 1).val
      omega
  rw [hA, hW]

/-- An index of the output array lies in point `t`'s block iff each coordinate is in the block's range on its axis. -/
theorem mem_block (t : Fin cfg6.N) (i : S100000x16.Idx) :
    i ∈ ((cfg6.win 2).blk t).view.set ↔ ∀ a : Fin 2, win6_2.index t a * S10000x16.size a ≤ (i a).val ∧ (i a).val < win6_2.index t a * S10000x16.size a + S10000x16.size a := by
  show i ∈ ((View.whole main_v61).slice (win6_2.rect t)).set ↔ _
  rw [View.set_slice_whole, Rect.mem_set_unit]
  exact Iff.rfl

/-- Every row belongs to the block of the point numbered by the row's quotient by 10000. -/
theorem covered (i : S100000x16.Idx) : ∃ t : Fin cfg6.N, (cfg6.win 2).flush t = true ∧ i ∈ ((cfg6.win 2).blk t).view.set := by
  have hi0 : (i 0).val < 100000 := (i 0).isLt
  have hi1 : (i 1).val < 16 := (i 1).isLt
  have hN : cfg6.N = 10 := N_6
  let t : Fin cfg6.N := ⟨(i 0).val / 10000, by rw [hN]; omega⟩
  obtain ⟨e0, e1, e2, e3, e4, e5⟩ := blockIndex t
  have ht : t.val = (i 0).val / 10000 := rfl
  refine ⟨t, flush6_2 t, ?_⟩
  rw [mem_block]
  intro a
  match a with
  | ⟨0, _⟩ =>
    show win6_2.index t (0 : Fin 2) * 10000 ≤ (i 0).val ∧ (i 0).val < win6_2.index t (0 : Fin 2) * 10000 + 10000
    omega
  | ⟨1, _⟩ =>
    show win6_2.index t (1 : Fin 2) * 16 ≤ (i 1).val ∧ (i 1).val < win6_2.index t (1 : Fin 2) * 16 + 16
    omega

/-- The output array after the launch is the whole product of the arrays the launch found. -/
theorem final (c : Dev nD) :
    (dat6 V c).arrAt 2 cfg6.N = Gcn.lin (M := 100000) (K := 32) (N := 16) (V c main_v60) (V c main_arg6) :=
  (dat6 V c).arrAt_eq_of_cover 2 _ (fun t _ => flushed_eq V c t) covered

end Cert.KernelIdeal.LinearThree

end
-- ==== Proof.ScaleOne.lean ====
/-
  Launch 1 of the program: every edge's gathered row times that edge's weight, 340 blocks of 5000 edges.

  Grid point `t` loads edges `5000 t … 5000 t + 4999` of the gathered rows (`5000 × 16`) and of the weight column
  (`5000 × 1`), broadcasts the column over the 16 lanes, multiplies entry by entry and writes the block back at the same
  edges.  Entry `(e, j)` of a block's product is the row's entry times the weight of the same edge, so the blocks are
  the restrictions of one array, and the 340 blocks cover all 1700000 edges.
-/
import proofs.«173124_j13924283973778_2_alg».proof.Proof.Gen.KernelIdeal.Frame
import proofs.«173124_j13924283973778_2_alg».proof.Proof.Spec
import proofs.«173124_j13924283973778_2_alg».proof.Proof.LibRowOps
import Idealize.ShloMosaic.Lib.Pipeline.Value

set_option maxRecDepth 16384

noncomputable section

namespace Cert.KernelIdeal.ScaleOne

open Cert.KernelIdeal Cert.KernelIdeal.Gen
open Idealize.ShloMosaic Idealize.ShloMosaic.TcCoe Idealize.ShloMosaic.ValueIdx Idealize.SL.Sem

variable (V : (c : Dev nD) → (b : Ref sig .tc) → Buf (Elt Ideal) ((c : Thread nD τ).loc b))

theorem zeroOff : (![0, 0] : Fin 2 → Nat) = fun _ => 0 := funext fun a => by fin_cases a <;> rfl

/-- The body's arithmetic on a pair of loaded blocks: each row of the first times the second's entry on that row. -/
theorem body_eq (x0 : Vec Ideal S5000x16 .f32) (x1 : Vec Ideal S5000x1 .f32) :
    k1_pay1 x0 x1 = Gcn.scale (E := 5000) (N := 16) x0 x1 := by
  funext y
  rw [eq_ix2 y]
  unfold k1_pay1
  simp only [shapeCast_self]
  show x0 (ix2 (y 0) (y 1)) * broadcastTo S5000x16 x1 broadcasts_S5000x1_S5000x16 (ix2 (y 0) (y 1)) = _
  rw [Cert.LibRowOps.broadcastTo_a1_ab_apply x1 broadcasts_S5000x1_S5000x16 (y 0) (y 1)]
  rfl

/-- Where each window's block sits at point `t`: all three at block-row `t`. -/
theorem blockIndex : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the whole array of scaled rows. -/
theorem flushed_eq (c : Dev nD) (t : Fin cfg1.N) :
    (dat1 V c).flushed 2 t
      = ((cfg1.win 2).blk t).view.read (Elt Ideal) (Gcn.scale (E := 1700000) (N := 16) (V c main_v40) (V c main_v32)) := by
  show (cfg1.win 2).cut (grid1.coords t) ((dat1 V c).after 2 t) = _
  rw [after1_2]
  unfold out1_2
  rw [View.canon_unit_zero zeroOff]
  simp only [View.ld_unit_zero (S := S5000x16) zeroOff, View.ld_unit_zero (S := S5000x1) zeroOff]
  rw [body_eq]
  obtain ⟨e0, e1, e2, e3, e4, e5⟩ := blockIndex t
  funext j
  show Gcn.scale (E := 5000) (N := 16) (iblk1 V c 0 t) (iblk1 V c 1 t) j
      = Gcn.scale (E := 1700000) (N := 16) (V c main_v40) (V c main_v32) (((cfg1.win 2).blk t).view.emb j)
  unfold Gcn.scale
  have hA : iblk1 V c 0 t j = V c main_v40 (((cfg1.win 2).blk t).view.emb j) := by
    show V c main_v40 (((cfg1.win 0).blk t).view.emb j) = _
    refine congrArg _ (funext fun a => Fin.ext ?_)
    match a with
    | ⟨0, _⟩ =>
      show win1_0.index t (0 : Fin 2) * 5000 + 1 * (j 0).val = win1_2.index t (0 : Fin 2) * 5000 + 1 * (j 0).val
      omega
    | ⟨1, _⟩ =>
      show win1_0.index t (1 : Fin 2) * 16 + 1 * (j 1).val = win1_2.index t (1 : Fin 2) * 16 + 1 * (j 1).val
      omega
  have hW : iblk1 V c 1 t (ix2 (j 0) (0 : Fin 1)) = V c main_v32 (ix2 ((((cfg1.win 2).blk t).view.emb j) 0) (0 : Fin 1)) := by
    show V c main_v32 (((cfg1.win 1).blk t).view.emb (ix2 (j 0) (0 : Fin 1))) = _
    refine congrArg _ (funext fun a => Fin.ext ?_)
    match a with
    | ⟨0, _⟩ =>
      show win1_1.index t (0 : Fin 2) * 5000 + 1 * (j 0).val = win1_2.index t (0 : Fin 2) * 5000 + 1 * (j 0).val
      omega
    | ⟨1, _⟩ =>
      show win1_1.index t (1 : Fin 2) * 1 + 1 * 0 = 0
      omega
  rw [hA, hW]

/-- An index of the output array lies in point `t`'s block iff each coordinate is in the block's range on its axis. -/
theorem mem_block (t : Fin cfg1.N) (i : S1700000x16.Idx) :
    i ∈ ((cfg1.win 2).blk t).view.set ↔ ∀ a : Fin 2, win1_2.index t a * S5000x16.size a ≤ (i a).val ∧ (i a).val < win1_2.index t a * S5000x16.size a + S5000x16.size a := by
  show i ∈ ((View.whole main_v41).slice (win1_2.rect t)).set ↔ _
  rw [View.set_slice_whole, Rect.mem_set_unit]
  exact Iff.rfl

/-- Every edge belongs to the block of the point numbered by the edge's quotient by 5000. -/
theorem covered (i : S1700000x16.Idx) : ∃ t : Fin cfg1.N, (cfg1.win 2).flush t = true ∧ i ∈ ((cfg1.win 2).blk t).view.set := by
  have hi0 : (i 0).val < 1700000 := (i 0).isLt
  have hi1 : (i 1).val < 16 := (i 1).isLt
  have hN : cfg1.N = 340 := N_1
  let t : Fin cfg1.N := ⟨(i 0).val / 5000, by rw [hN]; omega⟩
  obtain ⟨e0, e1, e2, e3, e4, e5⟩ := blockIndex t
  have ht : t.val = (i 0).val / 5000 := rfl
  refine ⟨t, flush1_2 t, ?_⟩
  rw [mem_block]
  intro a
  match a with
  | ⟨0, _⟩ =>
    show win1_2.index t (0 : Fin 2) * 5000 ≤ (i 0).val ∧ (i 0).val < win1_2.index t (0 : Fin 2) * 5000 + 5000
    omega
  | ⟨1, _⟩ =>
    show win1_2.index t (1 : Fin 2) * 16 ≤ (i 1).val ∧ (i 1).val < win1_2.index t (1 : Fin 2) * 16 + 16
    omega

/-- The output array after the launch is the array of scaled rows of the arrays the launch found. -/
theorem final (c : Dev nD) :
    (dat1 V c).arrAt 2 cfg1.N = Gcn.scale (E := 1700000) (N := 16) (V c main_v40) (V c main_v32) :=
  (dat1 V c).arrAt_eq_of_cover 2 _ (fun t _ => flushed_eq V c t) covered

end Cert.KernelIdeal.ScaleOne

end
-- ==== Proof.ScaleTwo.lean ====
/-
  Launch 4 of the program: every edge's gathered row times that edge's weight, 340 blocks of 5000 edges.

  Grid point `t` loads edges `5000 t … 5000 t + 4999` of the gathered rows (`5000 × 32`) and of the weight column
  (`5000 × 1`), broadcasts the column over the 32 lanes, multiplies entry by entry and writes the block back at the same
  edges.  Entry `(e, j)` of a block's product is the row's entry times the weight of the same edge, so the blocks are
  the restrictions of one array, and the 340 blocks cover all 1700000 edges.
-/
import proofs.«173124_j13924283973778_2_alg».proof.Proof.Gen.KernelIdeal.Frame
import proofs.«173124_j13924283973778_2_alg».proof.Proof.Spec
import proofs.«173124_j13924283973778_2_alg».proof.Proof.LibRowOps
import Idealize.ShloMosaic.Lib.Pipeline.Value

set_option maxRecDepth 16384

noncomputable section

namespace Cert.KernelIdeal.ScaleTwo

open Cert.KernelIdeal Cert.KernelIdeal.Gen
open Idealize.ShloMosaic Idealize.ShloMosaic.TcCoe Idealize.ShloMosaic.ValueIdx Idealize.SL.Sem

variable (V : (c : Dev nD) → (b : Ref sig .tc) → Buf (Elt Ideal) ((c : Thread nD τ).loc b))

theorem zeroOff : (![0, 0] : Fin 2 → Nat) = fun _ => 0 := funext fun a => by fin_cases a <;> rfl

/-- The body's arithmetic on a pair of loaded blocks: each row of the first times the second's entry on that row. -/
theorem body_eq (x0 : Vec Ideal S5000x32 .f32) (x1 : Vec Ideal S5000x1 .f32) :
    k4_pay1 x0 x1 = Gcn.scale (E := 5000) (N := 32) x0 x1 := by
  funext y
  rw [eq_ix2 y]
  unfold k4_pay1
  simp only [shapeCast_self]
  show x0 (ix2 (y 0) (y 1)) * broadcastTo S5000x32 x1 broadcasts_S5000x1_S5000x32 (ix2 (y 0) (y 1)) = _
  rw [Cert.LibRowOps.broadcastTo_a1_ab_apply x1 broadcasts_S5000x1_S5000x32 (y 0) (y 1)]
  rfl

/-- Where each window's block sits at point `t`: all three at block-row `t`. -/
theorem blockIndex : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- What point `t` writes back is block `t` of the whole array of scaled rows. -/
theorem flushed_eq (c : Dev nD) (t : Fin cfg4.N) :
    (dat4 V c).flushed 2 t
      = ((cfg4.win 2).blk t).view.read (Elt Ideal) (Gcn.scale (E := 1700000) (N := 32) (V c main_v54) (V c main_v32)) := by
  show (cfg4.win 2).cut (grid4.coords t) ((dat4 V c).after 2 t) = _
  rw [after4_2]
  unfold out4_2
  rw [View.canon_unit_zero zeroOff]
  simp only [View.ld_unit_zero (S := S5000x32) zeroOff, View.ld_unit_zero (S := S5000x1) zeroOff]
  rw [body_eq]
  obtain ⟨e0, e1, e2, e3, e4, e5⟩ := blockIndex t
  funext j
  show Gcn.scale (E := 5000) (N := 32) (iblk4 V c 0 t) (iblk4 V c 1 t) j
      = Gcn.scale (E := 1700000) (N := 32) (V c main_v54) (V c main_v32) (((cfg4.win 2).blk t).view.emb j)
  unfold Gcn.scale
  have hA : iblk4 V c 0 t j = V c main_v54 (((cfg4.win 2).blk t).view.emb j) := by
    show V c main_v54 (((cfg4.win 0).blk t).view.emb j) = _
    refine congrArg _ (funext fun a => Fin.ext ?_)
    match a with
    | ⟨0, _⟩ =>
      show win4_0.index t (0 : Fin 2) * 5000 + 1 * (j 0).val = win4_2.index t (0 : Fin 2) * 5000 + 1 * (j 0).val
      omega
    | ⟨1, _⟩ =>
      show win4_0.index t (1 : Fin 2) * 32 + 1 * (j 1).val = win4_2.index t (1 : Fin 2) * 32 + 1 * (j 1).val
      omega
  have hW : iblk4 V c 1 t (ix2 (j 0) (0 : Fin 1)) = V c main_v32 (ix2 ((((cfg4.win 2).blk t).view.emb j) 0) (0 : Fin 1)) := by
    show V c main_v32 (((cfg4.win 1).blk t).view.emb (ix2 (j 0) (0 : Fin 1))) = _
    refine congrArg _ (funext fun a => Fin.ext ?_)
    match a with
    | ⟨0, _⟩ =>
      show win4_1.index t (0 : Fin 2) * 5000 + 1 * (j 0).val = win4_2.index t (0 : Fin 2) * 5000 + 1 * (j 0).val
      omega
    | ⟨1, _⟩ =>
      show win4_1.index t (1 : Fin 2) * 1 + 1 * 0 = 0
      omega
  rw [hA, hW]

/-- An index of the output array lies in point `t`'s block iff each coordinate is in the block's range on its axis. -/
theorem mem_block (t : Fin cfg4.N) (i : S1700000x32.Idx) :
    i ∈ ((cfg4.win 2).blk t).view.set ↔ ∀ a : Fin 2, win4_2.index t a * S5000x32.size a ≤ (i a).val ∧ (i a).val < win4_2.index t a * S5000x32.size a + S5000x32.size a := by
  show i ∈ ((View.whole main_v55).slice (win4_2.rect t)).set ↔ _
  rw [View.set_slice_whole, Rect.mem_set_unit]
  exact Iff.rfl

/-- Every edge belongs to the block of the point numbered by the edge's quotient by 5000. -/
theorem covered (i : S1700000x32.Idx) : ∃ t : Fin cfg4.N, (cfg4.win 2).flush t = true ∧ i ∈ ((cfg4.win 2).blk t).view.set := by
  have hi0 : (i 0).val < 1700000 := (i 0).isLt
  have hi1 : (i 1).val < 32 := (i 1).isLt
  have hN : cfg4.N = 340 := N_4
  let t : Fin cfg4.N := ⟨(i 0).val / 5000, by rw [hN]; omega⟩
  obtain ⟨e0, e1, e2, e3, e4, e5⟩ := blockIndex t
  have ht : t.val = (i 0).val / 5000 := rfl
  refine ⟨t, flush4_2 t, ?_⟩
  rw [mem_block]
  intro a
  match a with
  | ⟨0, _⟩ =>
    show win4_2.index t (0 : Fin 2) * 5000 ≤ (i 0).val ∧ (i 0).val < win4_2.index t (0 : Fin 2) * 5000 + 5000
    omega
  | ⟨1, _⟩ =>
    show win4_2.index t (1 : Fin 2) * 32 ≤ (i 1).val ∧ (i 1).val < win4_2.index t (1 : Fin 2) * 32 + 32
    omega

/-- The output array after the launch is the array of scaled rows of the arrays the launch found. -/
theorem final (c : Dev nD) :
    (dat4 V c).arrAt 2 cfg4.N = Gcn.scale (E := 1700000) (N := 32) (V c main_v54) (V c main_v32) :=
  (dat4 V c).arrAt_eq_of_cover 2 _ (fun t _ => flushed_eq V c t) covered

end Cert.KernelIdeal.ScaleTwo

end
-- ==== Proof.ScaleThree.lean ====
/-
  Launch 7 of the program: every edge's gathered row times that edge's weight, 340 blocks of 5000 edges.

  Grid point `t` loads edges `5000 t … 5000 t + 4999` of the gathered rows (`5000 × 16`) and of the weight column
  (`5000 × 1`), broadcasts the column over the 16 lanes, multiplies entry by entry and writes the block back at the same
  edges.  Entry `(e, j)` of a block's product is the row's entry times the weight of the same edge, so the blocks are
  the restrictions of one array, and the 340 blocks cover all 1700000 edges.
-/
import proofs.«173124_j13924283973778_2_alg».proof.Proof.Gen.KernelIdeal.Frame
import proofs.«173124_j13924283973778_2_alg».proof.Proof.Spec
import proofs.«173124_j13924283973778_2_alg».proof.Proof.LibRowOps
import Idealize.ShloMosaic.Lib.Pipeline.Value

set_option maxRecDepth 16384

noncomputable section

namespace Cert.KernelIdeal.ScaleThree

open Cert.KernelIdeal Cert.KernelIdeal.Gen
open Idealize.ShloMosaic Idealize.ShloMosaic.TcCoe Idealize.ShloMosaic.ValueIdx Idealize.SL.Sem

variable (V : (c : Dev nD) → (b : Ref sig .tc) → Buf (Elt Ideal) ((c : Thread nD τ).loc b))

theorem zeroOff : (![0, 0] : Fin 2 → Nat) = fun _ => 0 := funext fun a => by fin_cases a <;> rfl

/-- The body's arithmetic on a pair of loaded blocks: each row of the first times the second's entry on that row. -/
theorem body_eq (x0 : Vec Ideal S5000x16 .f32) (x1 : Vec Ideal S5000x1 .f32) :
    k7_pay1 x0 x1 = Gcn.scale (E := 5000) (N := 16) x0 x1 := by
  funext y
  rw [eq_ix2 y]
  unfold k7_pay1
  simp only [shapeCast_self]
  show x0 (ix2 (y 0) (y 1)) * broadcastTo S5000x16 x1 broadcasts_S5000x1_S5000x16 (ix2 (y 0) (y 1)) = _
  rw [Cert.LibRowOps.broadcastTo_a1_ab_apply x1 broadcasts_S5000x1_S5000x16 (y 0) (y 1)]
  rfl

/-- Where each window's block sits at point `t`: all three at block-row `t`. -/
theorem blockIndex : ∀ t : Fin cfg7.N, win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0 :=
  (by decide +kernel : ∀ t : Fin grid7.N, _)

/-- What point `t` writes back is block `t` of the whole array of scaled rows. -/
theorem flushed_eq (c : Dev nD) (t : Fin cfg7.N) :
    (dat7 V c).flushed 2 t
      = ((cfg7.win 2).blk t).view.read (Elt Ideal) (Gcn.scale (E := 1700000) (N := 16) (V c main_v68) (V c main_v32)) := by
  show (cfg7.win 2).cut (grid7.coords t) ((dat7 V c).after 2 t) = _
  rw [after7_2]
  unfold out7_2
  rw [View.canon_unit_zero zeroOff]
  simp only [View.ld_unit_zero (S := S5000x16) zeroOff, View.ld_unit_zero (S := S5000x1) zeroOff]
  rw [body_eq]
  obtain ⟨e0, e1, e2, e3, e4, e5⟩ := blockIndex t
  funext j
  show Gcn.scale (E := 5000) (N := 16) (iblk7 V c 0 t) (iblk7 V c 1 t) j
      = Gcn.scale (E := 1700000) (N := 16) (V c main_v68) (V c main_v32) (((cfg7.win 2).blk t).view.emb j)
  unfold Gcn.scale
  have hA : iblk7 V c 0 t j = V c main_v68 (((cfg7.win 2).blk t).view.emb j) := by
    show V c main_v68 (((cfg7.win 0).blk t).view.emb j) = _
    refine congrArg _ (funext fun a => Fin.ext ?_)
    match a with
    | ⟨0, _⟩ =>
      show win7_0.index t (0 : Fin 2) * 5000 + 1 * (j 0).val = win7_2.index t (0 : Fin 2) * 5000 + 1 * (j 0).val
      omega
    | ⟨1, _⟩ =>
      show win7_0.index t (1 : Fin 2) * 16 + 1 * (j 1).val = win7_2.index t (1 : Fin 2) * 16 + 1 * (j 1).val
      omega
  have hW : iblk7 V c 1 t (ix2 (j 0) (0 : Fin 1)) = V c main_v32 (ix2 ((((cfg7.win 2).blk t).view.emb j) 0) (0 : Fin 1)) := by
    show V c main_v32 (((cfg7.win 1).blk t).view.emb (ix2 (j 0) (0 : Fin 1))) = _
    refine congrArg _ (funext fun a => Fin.ext ?_)
    match a with
    | ⟨0, _⟩ =>
      show win7_1.index t (0 : Fin 2) * 5000 + 1 * (j 0).val = win7_2.index t (0 : Fin 2) * 5000 + 1 * (j 0).val
      omega
    | ⟨1, _⟩ =>
      show win7_1.index t (1 : Fin 2) * 1 + 1 * 0 = 0
      omega
  rw [hA, hW]

/-- An index of the output array lies in point `t`'s block iff each coordinate is in the block's range on its axis. -/
theorem mem_block (t : Fin cfg7.N) (i : S1700000x16.Idx) :
    i ∈ ((cfg7.win 2).blk t).view.set ↔ ∀ a : Fin 2, win7_2.index t a * S5000x16.size a ≤ (i a).val ∧ (i a).val < win7_2.index t a * S5000x16.size a + S5000x16.size a := by
  show i ∈ ((View.whole main_v69).slice (win7_2.rect t)).set ↔ _
  rw [View.set_slice_whole, Rect.mem_set_unit]
  exact Iff.rfl

/-- Every edge belongs to the block of the point numbered by the edge's quotient by 5000. -/
theorem covered (i : S1700000x16.Idx) : ∃ t : Fin cfg7.N, (cfg7.win 2).flush t = true ∧ i ∈ ((cfg7.win 2).blk t).view.set := by
  have hi0 : (i 0).val < 1700000 := (i 0).isLt
  have hi1 : (i 1).val < 16 := (i 1).isLt
  have hN : cfg7.N = 340 := N_7
  let t : Fin cfg7.N := ⟨(i 0).val / 5000, by rw [hN]; omega⟩
  obtain ⟨e0, e1, e2, e3, e4, e5⟩ := blockIndex t
  have ht : t.val = (i 0).val / 5000 := rfl
  refine ⟨t, flush7_2 t, ?_⟩
  rw [mem_block]
  intro a
  match a with
  | ⟨0, _⟩ =>
    show win7_2.index t (0 : Fin 2) * 5000 ≤ (i 0).val ∧ (i 0).val < win7_2.index t (0 : Fin 2) * 5000 + 5000
    omega
  | ⟨1, _⟩ =>
    show win7_2.index t (1 : Fin 2) * 16 ≤ (i 1).val ∧ (i 1).val < win7_2.index t (1 : Fin 2) * 16 + 16
    omega

/-- The output array after the launch is the array of scaled rows of the arrays the launch found. -/
theorem final (c : Dev nD) :
    (dat7 V c).arrAt 2 cfg7.N = Gcn.scale (E := 1700000) (N := 16) (V c main_v68) (V c main_v32) :=
  (dat7 V c).arrAt_eq_of_cover 2 _ (fun t _ => flushed_eq V c t) covered

end Cert.KernelIdeal.ScaleThree

end
-- ==== Proof.BiasOne.lean ====
/-
  Launch 2 of the program: the accumulated rows plus the bias row, clamped below at zero, 10 blocks of 10000 nodes.

  Grid point `t` loads nodes `10000 t … 10000 t + 9999` of the accumulated rows (`10000 × 16`) and the whole bias row
  (`1 × 16`), broadcasts the row over the 10000 nodes, adds entry by entry, takes the larger of the sum and the zero word's value
  and writes the block back at the same nodes.  Entry `(r, j)` of a block's result only involves entry `(r, j)` of the
  block and entry `j` of the bias, so the blocks are the restrictions of one array, and the 10 blocks cover all 100000
  nodes.
-/
import proofs.«173124_j13924283973778_2_alg».proof.Proof.Gen.KernelIdeal.Frame
import proofs.«173124_j13924283973778_2_alg».proof.Proof.Spec
import Idealize.ShloMosaic.Lib.ValueLayout
import Idealize.ShloMosaic.Lib.Pipeline.Value

set_option maxRecDepth 16384

noncomputable section

namespace Cert.KernelIdeal.BiasOne

open Cert.KernelIdeal Cert.KernelIdeal.Gen
open Idealize.ShloMosaic Idealize.ShloMosaic.TcCoe Idealize.ShloMosaic.ValueIdx Idealize.SL.Sem

variable (V : (c : Dev nD) → (b : Ref sig .tc) → Buf (Elt Ideal) ((c : Thread nD τ).loc b))

theorem zeroOff : (![0, 0] : Fin 2 → Nat) = fun _ => 0 := funext fun a => by fin_cases a <;> rfl

/-- The body's arithmetic on a pair of loaded blocks: each row of the first plus the second's one row, clamped. -/
theorem body_eq (x0 : Vec Ideal S10000x16 .f32) (x1 : Vec Ideal S1x16 .f32) :
    k2_pay1 x0 x1 = Gcn.biasClamp (M := 10000) (N := 16) x0 x1 := by
  funext y
  rw [eq_ix2 y]
  unfold k2_pay1
  simp only [shapeCast_self]
  show max (x0 (ix2 (y 0) (y 1)) + broadcastTo S10000x16 x1 broadcasts_S1x16_S10000x16 (ix2 (y 0) (y 1))) (Ideal.ofBits .f32 0x00000000#32) = _
  rw [broadcastTo_1b_ab_apply x1 broadcasts_S1x16_S10000x16 (y 0) (y 1)]
  rfl

/-- Where each window's block sits at point `t`: the accumulated rows and the output at block-row `t`, the bias whole. -/
theorem blockIndex : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the whole array of biased rows. -/
theorem flushed_eq (c : Dev nD) (t : Fin cfg2.N) :
    (dat2 V c).flushed 2 t
      = ((cfg2.win 2).blk t).view.read (Elt Ideal) (Gcn.biasClamp (M := 100000) (N := 16) (V c main_v44) (V c main_v45)) := by
  show (cfg2.win 2).cut (grid2.coords t) ((dat2 V c).after 2 t) = _
  rw [after2_2]
  unfold out2_2
  rw [View.canon_unit_zero zeroOff]
  simp only [View.ld_unit_zero (S := S10000x16) zeroOff, View.ld_unit_zero (S := S1x16) zeroOff]
  rw [body_eq]
  obtain ⟨e0, e1, e2, e3, e4, e5⟩ := blockIndex t
  funext j
  show Gcn.biasClamp (M := 10000) (N := 16) (iblk2 V c 0 t) (iblk2 V c 1 t) j
      = Gcn.biasClamp (M := 100000) (N := 16) (V c main_v44) (V c main_v45) (((cfg2.win 2).blk t).view.emb j)
  unfold Gcn.biasClamp
  have hA : iblk2 V c 0 t j = V c main_v44 (((cfg2.win 2).blk t).view.emb j) := by
    show V c main_v44 (((cfg2.win 0).blk t).view.emb j) = _
    refine congrArg _ (funext fun a => Fin.ext ?_)
    match a with
    | ⟨0, _⟩ =>
      show win2_0.index t (0 : Fin 2) * 10000 + 1 * (j 0).val = win2_2.index t (0 : Fin 2) * 10000 + 1 * (j 0).val
      omega
    | ⟨1, _⟩ =>
      show win2_0.index t (1 : Fin 2) * 16 + 1 * (j 1).val = win2_2.index t (1 : Fin 2) * 16 + 1 * (j 1).val
      omega
  have hB : iblk2 V c 1 t (ix2 (0 : Fin 1) (j 1)) = V c main_v45 (ix2 (0 : Fin 1) ((((cfg2.win 2).blk t).view.emb j) 1)) := by
    show V c main_v45 (((cfg2.win 1).blk t).view.emb (ix2 (0 : Fin 1) (j 1))) = _
    refine congrArg _ (funext fun a => Fin.ext ?_)
    match a with
    | ⟨0, _⟩ =>
      show win2_1.index t (0 : Fin 2) * 1 + 1 * 0 = 0
      omega
    | ⟨1, _⟩ =>
      show win2_1.index t (1 : Fin 2) * 16 + 1 * (j 1).val = win2_2.index t (1 : Fin 2) * 16 + 1 * (j 1).val
      omega
  rw [hA, hB]

/-- An index of the output array lies in point `t`'s block iff each coordinate is in the block's range on its axis. -/
theorem mem_block (t : Fin cfg2.N) (i : S100000x16.Idx) :
    i ∈ ((cfg2.win 2).blk t).view.set ↔ ∀ a : Fin 2, win2_2.index t a * S10000x16.size a ≤ (i a).val ∧ (i a).val < win2_2.index t a * S10000x16.size a + S10000x16.size a := by
  show i ∈ ((View.whole main_v46).slice (win2_2.rect t)).set ↔ _
  rw [View.set_slice_whole, Rect.mem_set_unit]
  exact Iff.rfl

/-- Every node belongs to the block of the point numbered by the node's quotient by 10000. -/
theorem covered (i : S100000x16.Idx) : ∃ t : Fin cfg2.N, (cfg2.win 2).flush t = true ∧ i ∈ ((cfg2.win 2).blk t).view.set := by
  have hi0 : (i 0).val < 100000 := (i 0).isLt
  have hi1 : (i 1).val < 16 := (i 1).isLt
  have hN : cfg2.N = 10 := N_2
  let t : Fin cfg2.N := ⟨(i 0).val / 10000, by rw [hN]; omega⟩
  obtain ⟨e0, e1, e2, e3, e4, e5⟩ := blockIndex t
  have ht : t.val = (i 0).val / 10000 := rfl
  refine ⟨t, flush2_2 t, ?_⟩
  rw [mem_block]
  intro a
  match a with
  | ⟨0, _⟩ =>
    show win2_2.index t (0 : Fin 2) * 10000 ≤ (i 0).val ∧ (i 0).val < win2_2.index t (0 : Fin 2) * 10000 + 10000
    omega
  | ⟨1, _⟩ =>
    show win2_2.index t (1 : Fin 2) * 16 ≤ (i 1).val ∧ (i 1).val < win2_2.index t (1 : Fin 2) * 16 + 16
    omega

/-- The output array after the launch is the array of biased rows of the arrays the launch found. -/
theorem final (c : Dev nD) :
    (dat2 V c).arrAt 2 cfg2.N = Gcn.biasClamp (M := 100000) (N := 16) (V c main_v44) (V c main_v45) :=
  (dat2 V c).arrAt_eq_of_cover 2 _ (fun t _ => flushed_eq V c t) covered

end Cert.KernelIdeal.BiasOne

end
-- ==== Proof.BiasTwo.lean ====
/-
  Launch 5 of the program: the accumulated rows plus the bias row, clamped below at zero, 10 blocks of 10000 nodes.

  Grid point `t` loads nodes `10000 t … 10000 t + 9999` of the accumulated rows (`10000 × 32`) and the whole bias row
  (`1 × 32`), broadcasts the row over the 10000 nodes, adds entry by entry, takes the larger of the sum and the zero word's value
  and writes the block back at the same nodes.  Entry `(r, j)` of a block's result only involves entry `(r, j)` of the
  block and entry `j` of the bias, so the blocks are the restrictions of one array, and the 10 blocks cover all 100000
  nodes.
-/
import proofs.«173124_j13924283973778_2_alg».proof.Proof.Gen.KernelIdeal.Frame
import proofs.«173124_j13924283973778_2_alg».proof.Proof.Spec
import Idealize.ShloMosaic.Lib.ValueLayout
import Idealize.ShloMosaic.Lib.Pipeline.Value

set_option maxRecDepth 16384

noncomputable section

namespace Cert.KernelIdeal.BiasTwo

open Cert.KernelIdeal Cert.KernelIdeal.Gen
open Idealize.ShloMosaic Idealize.ShloMosaic.TcCoe Idealize.ShloMosaic.ValueIdx Idealize.SL.Sem

variable (V : (c : Dev nD) → (b : Ref sig .tc) → Buf (Elt Ideal) ((c : Thread nD τ).loc b))

theorem zeroOff : (![0, 0] : Fin 2 → Nat) = fun _ => 0 := funext fun a => by fin_cases a <;> rfl

/-- The body's arithmetic on a pair of loaded blocks: each row of the first plus the second's one row, clamped. -/
theorem body_eq (x0 : Vec Ideal S10000x32 .f32) (x1 : Vec Ideal S1x32 .f32) :
    k5_pay1 x0 x1 = Gcn.biasClamp (M := 10000) (N := 32) x0 x1 := by
  funext y
  rw [eq_ix2 y]
  unfold k5_pay1
  simp only [shapeCast_self]
  show max (x0 (ix2 (y 0) (y 1)) + broadcastTo S10000x32 x1 broadcasts_S1x32_S10000x32 (ix2 (y 0) (y 1))) (Ideal.ofBits .f32 0x00000000#32) = _
  rw [broadcastTo_1b_ab_apply x1 broadcasts_S1x32_S10000x32 (y 0) (y 1)]
  rfl

/-- Where each window's block sits at point `t`: the accumulated rows and the output at block-row `t`, the bias whole. -/
theorem blockIndex : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What point `t` writes back is block `t` of the whole array of biased rows. -/
theorem flushed_eq (c : Dev nD) (t : Fin cfg5.N) :
    (dat5 V c).flushed 2 t
      = ((cfg5.win 2).blk t).view.read (Elt Ideal) (Gcn.biasClamp (M := 100000) (N := 32) (V c main_v58) (V c main_v59)) := by
  show (cfg5.win 2).cut (grid5.coords t) ((dat5 V c).after 2 t) = _
  rw [after5_2]
  unfold out5_2
  rw [View.canon_unit_zero zeroOff]
  simp only [View.ld_unit_zero (S := S10000x32) zeroOff, View.ld_unit_zero (S := S1x32) zeroOff]
  rw [body_eq]
  obtain ⟨e0, e1, e2, e3, e4, e5⟩ := blockIndex t
  funext j
  show Gcn.biasClamp (M := 10000) (N := 32) (iblk5 V c 0 t) (iblk5 V c 1 t) j
      = Gcn.biasClamp (M := 100000) (N := 32) (V c main_v58) (V c main_v59) (((cfg5.win 2).blk t).view.emb j)
  unfold Gcn.biasClamp
  have hA : iblk5 V c 0 t j = V c main_v58 (((cfg5.win 2).blk t).view.emb j) := by
    show V c main_v58 (((cfg5.win 0).blk t).view.emb j) = _
    refine congrArg _ (funext fun a => Fin.ext ?_)
    match a with
    | ⟨0, _⟩ =>
      show win5_0.index t (0 : Fin 2) * 10000 + 1 * (j 0).val = win5_2.index t (0 : Fin 2) * 10000 + 1 * (j 0).val
      omega
    | ⟨1, _⟩ =>
      show win5_0.index t (1 : Fin 2) * 32 + 1 * (j 1).val = win5_2.index t (1 : Fin 2) * 32 + 1 * (j 1).val
      omega
  have hB : iblk5 V c 1 t (ix2 (0 : Fin 1) (j 1)) = V c main_v59 (ix2 (0 : Fin 1) ((((cfg5.win 2).blk t).view.emb j) 1)) := by
    show V c main_v59 (((cfg5.win 1).blk t).view.emb (ix2 (0 : Fin 1) (j 1))) = _
    refine congrArg _ (funext fun a => Fin.ext ?_)
    match a with
    | ⟨0, _⟩ =>
      show win5_1.index t (0 : Fin 2) * 1 + 1 * 0 = 0
      omega
    | ⟨1, _⟩ =>
      show win5_1.index t (1 : Fin 2) * 32 + 1 * (j 1).val = win5_2.index t (1 : Fin 2) * 32 + 1 * (j 1).val
      omega
  rw [hA, hB]

/-- An index of the output array lies in point `t`'s block iff each coordinate is in the block's range on its axis. -/
theorem mem_block (t : Fin cfg5.N) (i : S100000x32.Idx) :
    i ∈ ((cfg5.win 2).blk t).view.set ↔ ∀ a : Fin 2, win5_2.index t a * S10000x32.size a ≤ (i a).val ∧ (i a).val < win5_2.index t a * S10000x32.size a + S10000x32.size a := by
  show i ∈ ((View.whole main_v60).slice (win5_2.rect t)).set ↔ _
  rw [View.set_slice_whole, Rect.mem_set_unit]
  exact Iff.rfl

/-- Every node belongs to the block of the point numbered by the node's quotient by 10000. -/
theorem covered (i : S100000x32.Idx) : ∃ t : Fin cfg5.N, (cfg5.win 2).flush t = true ∧ i ∈ ((cfg5.win 2).blk t).view.set := by
  have hi0 : (i 0).val < 100000 := (i 0).isLt
  have hi1 : (i 1).val < 32 := (i 1).isLt
  have hN : cfg5.N = 10 := N_5
  let t : Fin cfg5.N := ⟨(i 0).val / 10000, by rw [hN]; omega⟩
  obtain ⟨e0, e1, e2, e3, e4, e5⟩ := blockIndex t
  have ht : t.val = (i 0).val / 10000 := rfl
  refine ⟨t, flush5_2 t, ?_⟩
  rw [mem_block]
  intro a
  match a with
  | ⟨0, _⟩ =>
    show win5_2.index t (0 : Fin 2) * 10000 ≤ (i 0).val ∧ (i 0).val < win5_2.index t (0 : Fin 2) * 10000 + 10000
    omega
  | ⟨1, _⟩ =>
    show win5_2.index t (1 : Fin 2) * 32 ≤ (i 1).val ∧ (i 1).val < win5_2.index t (1 : Fin 2) * 32 + 32
    omega

/-- The output array after the launch is the array of biased rows of the arrays the launch found. -/
theorem final (c : Dev nD) :
    (dat5 V c).arrAt 2 cfg5.N = Gcn.biasClamp (M := 100000) (N := 32) (V c main_v58) (V c main_v59) :=
  (dat5 V c).arrAt_eq_of_cover 2 _ (fun t _ => flushed_eq V c t) covered

end Cert.KernelIdeal.BiasTwo

end
-- ==== Proof.BiasThree.lean ====
/-
  Launch 8 of the program: the accumulated rows plus the bias row, 10 blocks of 10000 nodes.

  Grid point `t` loads nodes `10000 t … 10000 t + 9999` of the accumulated rows (`10000 × 16`) and the whole bias row
  (`1 × 16`), broadcasts the row over the 10000 nodes, adds entry by entry
  and writes the block back at the same nodes.  Entry `(r, j)` of a block's result only involves entry `(r, j)` of the
  block and entry `j` of the bias, so the blocks are the restrictions of one array, and the 10 blocks cover all 100000
  nodes.
-/
import proofs.«173124_j13924283973778_2_alg».proof.Proof.Gen.KernelIdeal.Frame
import proofs.«173124_j13924283973778_2_alg».proof.Proof.Spec
import Idealize.ShloMosaic.Lib.ValueLayout
import Idealize.ShloMosaic.Lib.Pipeline.Value

set_option maxRecDepth 16384

noncomputable section

namespace Cert.KernelIdeal.BiasThree

open Cert.KernelIdeal Cert.KernelIdeal.Gen
open Idealize.ShloMosaic Idealize.ShloMosaic.TcCoe Idealize.ShloMosaic.ValueIdx Idealize.SL.Sem

variable (V : (c : Dev nD) → (b : Ref sig .tc) → Buf (Elt Ideal) ((c : Thread nD τ).loc b))

theorem zeroOff : (![0, 0] : Fin 2 → Nat) = fun _ => 0 := funext fun a => by fin_cases a <;> rfl

/-- The body's arithmetic on a pair of loaded blocks: each row of the first plus the second's one row. -/
theorem body_eq (x0 : Vec Ideal S10000x16 .f32) (x1 : Vec Ideal S1x16 .f32) :
    k8_pay1 x0 x1 = Gcn.biasAdd (M := 10000) (N := 16) x0 x1 := by
  funext y
  rw [eq_ix2 y]
  unfold k8_pay1
  simp only [shapeCast_self]
  show x0 (ix2 (y 0) (y 1)) + broadcastTo S10000x16 x1 broadcasts_S1x16_S10000x16 (ix2 (y 0) (y 1)) = _
  rw [broadcastTo_1b_ab_apply x1 broadcasts_S1x16_S10000x16 (y 0) (y 1)]
  rfl

/-- Where each window's block sits at point `t`: the accumulated rows and the output at block-row `t`, the bias whole. -/
theorem blockIndex : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = t.val ∧ win8_2.index t (1 : Fin 2) = 0 :=
  (by decide +kernel : ∀ t : Fin grid8.N, _)

/-- What point `t` writes back is block `t` of the whole array of biased rows. -/
theorem flushed_eq (c : Dev nD) (t : Fin cfg8.N) :
    (dat8 V c).flushed 2 t
      = ((cfg8.win 2).blk t).view.read (Elt Ideal) (Gcn.biasAdd (M := 100000) (N := 16) (V c main_v72) (V c main_v73)) := by
  show (cfg8.win 2).cut (grid8.coords t) ((dat8 V c).after 2 t) = _
  rw [after8_2]
  unfold out8_2
  rw [View.canon_unit_zero zeroOff]
  simp only [View.ld_unit_zero (S := S10000x16) zeroOff, View.ld_unit_zero (S := S1x16) zeroOff]
  rw [body_eq]
  obtain ⟨e0, e1, e2, e3, e4, e5⟩ := blockIndex t
  funext j
  show Gcn.biasAdd (M := 10000) (N := 16) (iblk8 V c 0 t) (iblk8 V c 1 t) j
      = Gcn.biasAdd (M := 100000) (N := 16) (V c main_v72) (V c main_v73) (((cfg8.win 2).blk t).view.emb j)
  unfold Gcn.biasAdd
  have hA : iblk8 V c 0 t j = V c main_v72 (((cfg8.win 2).blk t).view.emb j) := by
    show V c main_v72 (((cfg8.win 0).blk t).view.emb j) = _
    refine congrArg _ (funext fun a => Fin.ext ?_)
    match a with
    | ⟨0, _⟩ =>
      show win8_0.index t (0 : Fin 2) * 10000 + 1 * (j 0).val = win8_2.index t (0 : Fin 2) * 10000 + 1 * (j 0).val
      omega
    | ⟨1, _⟩ =>
      show win8_0.index t (1 : Fin 2) * 16 + 1 * (j 1).val = win8_2.index t (1 : Fin 2) * 16 + 1 * (j 1).val
      omega
  have hB : iblk8 V c 1 t (ix2 (0 : Fin 1) (j 1)) = V c main_v73 (ix2 (0 : Fin 1) ((((cfg8.win 2).blk t).view.emb j) 1)) := by
    show V c main_v73 (((cfg8.win 1).blk t).view.emb (ix2 (0 : Fin 1) (j 1))) = _
    refine congrArg _ (funext fun a => Fin.ext ?_)
    match a with
    | ⟨0, _⟩ =>
      show win8_1.index t (0 : Fin 2) * 1 + 1 * 0 = 0
      omega
    | ⟨1, _⟩ =>
      show win8_1.index t (1 : Fin 2) * 16 + 1 * (j 1).val = win8_2.index t (1 : Fin 2) * 16 + 1 * (j 1).val
      omega
  rw [hA, hB]

/-- An index of the output array lies in point `t`'s block iff each coordinate is in the block's range on its axis. -/
theorem mem_block (t : Fin cfg8.N) (i : S100000x16.Idx) :
    i ∈ ((cfg8.win 2).blk t).view.set ↔ ∀ a : Fin 2, win8_2.index t a * S10000x16.size a ≤ (i a).val ∧ (i a).val < win8_2.index t a * S10000x16.size a + S10000x16.size a := by
  show i ∈ ((View.whole main_v74).slice (win8_2.rect t)).set ↔ _
  rw [View.set_slice_whole, Rect.mem_set_unit]
  exact Iff.rfl

/-- Every node belongs to the block of the point numbered by the node's quotient by 10000. -/
theorem covered (i : S100000x16.Idx) : ∃ t : Fin cfg8.N, (cfg8.win 2).flush t = true ∧ i ∈ ((cfg8.win 2).blk t).view.set := by
  have hi0 : (i 0).val < 100000 := (i 0).isLt
  have hi1 : (i 1).val < 16 := (i 1).isLt
  have hN : cfg8.N = 10 := N_8
  let t : Fin cfg8.N := ⟨(i 0).val / 10000, by rw [hN]; omega⟩
  obtain ⟨e0, e1, e2, e3, e4, e5⟩ := blockIndex t
  have ht : t.val = (i 0).val / 10000 := rfl
  refine ⟨t, flush8_2 t, ?_⟩
  rw [mem_block]
  intro a
  match a with
  | ⟨0, _⟩ =>
    show win8_2.index t (0 : Fin 2) * 10000 ≤ (i 0).val ∧ (i 0).val < win8_2.index t (0 : Fin 2) * 10000 + 10000
    omega
  | ⟨1, _⟩ =>
    show win8_2.index t (1 : Fin 2) * 16 ≤ (i 1).val ∧ (i 1).val < win8_2.index t (1 : Fin 2) * 16 + 16
    omega

/-- The output array after the launch is the array of biased rows of the arrays the launch found. -/
theorem final (c : Dev nD) :
    (dat8 V c).arrAt 2 cfg8.N = Gcn.biasAdd (M := 100000) (N := 16) (V c main_v72) (V c main_v73) :=
  (dat8 V c).arrAt_eq_of_cover 2 _ (fun t _ => flushed_eq V c t) covered

end Cert.KernelIdeal.BiasThree

end
-- ==== Proof.LibHostDot.lean ====
/-
  The host's matrix product read at an index, at the ideal values (extended reals, exact operations).

  A plain `stablehlo.dot_general` of an `M×K` by a `K×N` operand (no batch axis; the left operand contracted on its
  second axis, the right on its first) is, at `(r, j)`, the sum over `k : Fin K` of `lhs (r, k) * rhs (k, j)`,
  whatever the operands' float formats and the precision attribute.  It is the host's counterpart of a kernel's plain
  `tpu.matmul` into the zero accumulator read the same way; stated over the same sum, the two meet without any further
  re-indexing.  Standalone: imports only the Idealize library.
-/
import Idealize.ShloMosaic.Lib.ValueIdx
import Idealize.ShloMosaic.Lib.Pipeline.Value
import Idealize.ShloMosaic.PureOps.Ideal.Laws

noncomputable section

namespace Cert.LibHostDot

open Idealize.ShloMosaic Idealize.ShloMosaic.ValueIdx

/-- In a plain product the left operand's index at output `(r, j)` keeps the output row on its first axis; -/
theorem plain_lhs0 (M K N : ℕ) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch by simp [DotDims.plain]),
    dif_pos (show (0 : Fin 2) ∈ (DotDims.plain M K N).lhsNonContracting by simp [DotDims.plain])]
  rfl
/-- and the right operand's keeps the output lane on its second. -/
theorem plain_rhs1 (M K N : ℕ) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch by simp [DotDims.plain]),
    dif_pos (show (1 : Fin 2) ∈ (DotDims.plain M K N).rhsNonContracting by simp [DotDims.plain])]
  rfl

/-- The host's plain `M×K` by `K×N` `dot_general` at `(r, j)`: the sum over `k` of `lhs (r, k) * rhs (k, j)`. -/
theorem dotGeneral_plain_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (r : Fin M) (j : Fin N) :
    Host.dotGeneral d prec lhs rhs (ix2 r j) = ∑ k : Fin K, lhs (ix2 r k) * rhs (ix2 k j) := by
  subst hd
  simp only [Host.dotGeneral]
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r j) ((contrEquiv1 (DotDims.plain M K N) K rfl rfl).symm k) = ix2 r k :=
    funext fun ax => Fin.ext (by
      match ax with
      | ⟨0, _⟩ => exact plain_lhs0 M K N _ _
      | ⟨1, _⟩ => exact ((DotDims.plain M K N).lhsIdx_val_of_single (cl := (1 : Fin 2)) rfl _ _).trans hk)
  have er : (DotDims.plain M K N).rhsIdx (ix2 r j) ((contrEquiv1 (DotDims.plain M K N) K rfl rfl).symm k) = ix2 k j :=
    funext fun ax => Fin.ext (by
      match ax with
      | ⟨0, _⟩ => exact ((DotDims.plain M K N).rhsIdx_val_of_single (cr := (0 : Fin 2)) rfl _ _).trans hk
      | ⟨1, _⟩ => exact plain_rhs1 M K N _ _)
  rw [el, er]

end Cert.LibHostDot

end
-- ==== Proof.RefForms.lean ====
/-
  The reference's spelling of one graph-convolution layer, read as the same three array functions the kernel's
  launches compute (`Gcn.lin`, `Gcn.scale`, `Gcn.biasAdd` / `Gcn.biasClamp`).

  The reference multiplies the gathered rows by the edge weights broadcast first to an `[E, 1]` column and then over the
  lanes, and adds the bias broadcast first to a `[1, N]` row and then over the nodes; the kernel keeps the weights as a
  vector cast to an `[E, 1]` column and the bias as a vector cast to a `[1, N]` row and lets each launch broadcast its
  block.  At an entry both read the same weight and the same bias entry.  The reference's matrix product and the
  kernel's blockwise products are the same sums.
-/
import proofs.«173124_j13924283973778_2_alg».proof.KernelIdeal
import proofs.«173124_j13924283973778_2_alg».proof.ReferenceIdeal
import proofs.«173124_j13924283973778_2_alg».proof.Proof.Spec
import proofs.«173124_j13924283973778_2_alg».proof.Proof.LibRowOps
import proofs.«173124_j13924283973778_2_alg».proof.Proof.LibHostDot
import Idealize.ShloMosaic.Lib.ValueLayout
import Idealize.ShloMosaic.Lib.Pipeline.Value

noncomputable section

namespace Cert.RefForms

open Idealize.ShloMosaic Idealize.ShloMosaic.ValueIdx

variable [Cert.KernelIdeal.Facts₀] [Cert.ReferenceIdeal.Facts₀]

/-- The reference's `100000 × 2` by `2 × 16` matrix product is the layer's product of features and weights. -/
theorem product1 (x : FVec Ideal Cert.ReferenceIdeal.S100000x2 .f32) (w : FVec Ideal Cert.ReferenceIdeal.S2x16 .f32) :
    Host.dotGeneral Cert.ReferenceIdeal.dot_S100000x2_S2x16_S100000x16_1_0_0_1_n_n none x w = Gcn.lin (M := 100000) (K := 2) (N := 16) x w := by
  funext i
  rw [eq_ix2 i]
  exact Cert.LibHostDot.dotGeneral_plain_apply Cert.ReferenceIdeal.dot_S100000x2_S2x16_S100000x16_1_0_0_1_n_n rfl none x w (i 0) (i 1)

/-- The reference's `100000 × 16` by `16 × 32` matrix product is the layer's product of features and weights. -/
theorem product2 (x : FVec Ideal Cert.ReferenceIdeal.S100000x16 .f32) (w : FVec Ideal Cert.ReferenceIdeal.S16x32 .f32) :
    Host.dotGeneral Cert.ReferenceIdeal.dot_S100000x16_S16x32_S100000x32_1_0_0_1_n_n none x w = Gcn.lin (M := 100000) (K := 16) (N := 32) x w := by
  funext i
  rw [eq_ix2 i]
  exact Cert.LibHostDot.dotGeneral_plain_apply Cert.ReferenceIdeal.dot_S100000x16_S16x32_S100000x32_1_0_0_1_n_n rfl none x w (i 0) (i 1)

/-- The reference's `100000 × 32` by `32 × 16` matrix product is the layer's product of features and weights. -/
theorem product3 (x : FVec Ideal Cert.ReferenceIdeal.S100000x32 .f32) (w : FVec Ideal Cert.ReferenceIdeal.S32x16 .f32) :
    Host.dotGeneral Cert.ReferenceIdeal.dot_S100000x32_S32x16_S100000x16_1_0_0_1_n_n none x w = Gcn.lin (M := 100000) (K := 32) (N := 16) x w := by
  funext i
  rw [eq_ix2 i]
  exact Cert.LibHostDot.dotGeneral_plain_apply Cert.ReferenceIdeal.dot_S100000x32_S32x16_S100000x16_1_0_0_1_n_n rfl none x w (i 0) (i 1)

/-- The edge weights broadcast to an `[E, 1]` column and then over 16 lanes read, at `(e, j)`, the weight of edge `e`. -/
theorem weightColumn16 (n : FVec Ideal Cert.ReferenceIdeal.S1700000 .f32) (p : Fin 1700000) (q : Fin 16) :
    broadcastInDim Cert.ReferenceIdeal.S1700000x16 ![0, 1] Cert.ReferenceIdeal.Facts₀.bcast_S1700000x1_S1700000x16_0_1 (broadcastInDim Cert.ReferenceIdeal.S1700000x1 ![0] Cert.ReferenceIdeal.Facts₀.bcast_S1700000_S1700000x1_0 n) (ix2 p q)
      = n (ix1 p) := by
  refine (broadcastInDim_apply _ Cert.ReferenceIdeal.Facts₀.bcast_S1700000x1_S1700000x16_0_1 _ (ix2 p q) (ix2 p (0 : Fin 1)) (fun a => match a with
    | ⟨0, _⟩ => by show p.val = if (1700000 : Nat) = 1 then 0 else p.val; rw [if_neg (by decide)]
    | ⟨1, _⟩ => by show 0 = if (1 : Nat) = 1 then 0 else q.val; rw [if_pos rfl])).trans ?_
  exact broadcastInDim_apply _ Cert.ReferenceIdeal.Facts₀.bcast_S1700000_S1700000x1_0 n (ix2 p (0 : Fin 1)) (ix1 p) (fun a => match a with
    | ⟨0, _⟩ => by show p.val = if (1700000 : Nat) = 1 then 0 else p.val; rw [if_neg (by decide)])

/-- The reference's gathered rows times the broadcast edge weights are the layer's scaled rows, the weights kept as the
    kernel keeps them (a length-`E` vector cast to an `[E, 1]` column). -/
theorem scaled16 (a : FVec Ideal Cert.ReferenceIdeal.S1700000x16 .f32) (n : FVec Ideal Cert.ReferenceIdeal.S1700000 .f32) :
    mulf a (broadcastInDim Cert.ReferenceIdeal.S1700000x16 ![0, 1] Cert.ReferenceIdeal.Facts₀.bcast_S1700000x1_S1700000x16_0_1 (broadcastInDim Cert.ReferenceIdeal.S1700000x1 ![0] Cert.ReferenceIdeal.Facts₀.bcast_S1700000_S1700000x1_0 n))
      = Gcn.scale (E := 1700000) (N := 16) a (shapeCast Cert.KernelIdeal.S1700000x1 n Cert.KernelIdeal.Facts₀.shapeCasts_S1700000_S1700000x1) := by
  funext i
  rw [eq_ix2 i]
  exact congrArg (fun z => a (ix2 (i 0) (i 1)) * z) ((weightColumn16 n (i 0) (i 1)).trans
    (Cert.LibRowOps.shapeCast_a_a1_apply n Cert.KernelIdeal.Facts₀.shapeCasts_S1700000_S1700000x1 (i 0) (0 : Fin 1)).symm)

/-- The edge weights broadcast to an `[E, 1]` column and then over 32 lanes read, at `(e, j)`, the weight of edge `e`. -/
theorem weightColumn32 (n : FVec Ideal Cert.ReferenceIdeal.S1700000 .f32) (p : Fin 1700000) (q : Fin 32) :
    broadcastInDim Cert.ReferenceIdeal.S1700000x32 ![0, 1] Cert.ReferenceIdeal.Facts₀.bcast_S1700000x1_S1700000x32_0_1 (broadcastInDim Cert.ReferenceIdeal.S1700000x1 ![0] Cert.ReferenceIdeal.Facts₀.bcast_S1700000_S1700000x1_0 n) (ix2 p q)
      = n (ix1 p) := by
  refine (broadcastInDim_apply _ Cert.ReferenceIdeal.Facts₀.bcast_S1700000x1_S1700000x32_0_1 _ (ix2 p q) (ix2 p (0 : Fin 1)) (fun a => match a with
    | ⟨0, _⟩ => by show p.val = if (1700000 : Nat) = 1 then 0 else p.val; rw [if_neg (by decide)]
    | ⟨1, _⟩ => by show 0 = if (1 : Nat) = 1 then 0 else q.val; rw [if_pos rfl])).trans ?_
  exact broadcastInDim_apply _ Cert.ReferenceIdeal.Facts₀.bcast_S1700000_S1700000x1_0 n (ix2 p (0 : Fin 1)) (ix1 p) (fun a => match a with
    | ⟨0, _⟩ => by show p.val = if (1700000 : Nat) = 1 then 0 else p.val; rw [if_neg (by decide)])

/-- The reference's gathered rows times the broadcast edge weights are the layer's scaled rows, the weights kept as the
    kernel keeps them (a length-`E` vector cast to an `[E, 1]` column). -/
theorem scaled32 (a : FVec Ideal Cert.ReferenceIdeal.S1700000x32 .f32) (n : FVec Ideal Cert.ReferenceIdeal.S1700000 .f32) :
    mulf a (broadcastInDim Cert.ReferenceIdeal.S1700000x32 ![0, 1] Cert.ReferenceIdeal.Facts₀.bcast_S1700000x1_S1700000x32_0_1 (broadcastInDim Cert.ReferenceIdeal.S1700000x1 ![0] Cert.ReferenceIdeal.Facts₀.bcast_S1700000_S1700000x1_0 n))
      = Gcn.scale (E := 1700000) (N := 32) a (shapeCast Cert.KernelIdeal.S1700000x1 n Cert.KernelIdeal.Facts₀.shapeCasts_S1700000_S1700000x1) := by
  funext i
  rw [eq_ix2 i]
  exact congrArg (fun z => a (ix2 (i 0) (i 1)) * z) ((weightColumn32 n (i 0) (i 1)).trans
    (Cert.LibRowOps.shapeCast_a_a1_apply n Cert.KernelIdeal.Facts₀.shapeCasts_S1700000_S1700000x1 (i 0) (0 : Fin 1)).symm)

/-- The bias broadcast to a `[1, 16]` row and then over the nodes reads, at `(r, j)`, the bias's entry `j`. -/
theorem biasRows16 (b : FVec Ideal Cert.ReferenceIdeal.S16 .f32) (p : Fin 100000) (q : Fin 16) :
    broadcastInDim Cert.ReferenceIdeal.S100000x16 ![0, 1] Cert.ReferenceIdeal.Facts₀.bcast_S1x16_S100000x16_0_1 (broadcastInDim Cert.ReferenceIdeal.S1x16 ![1] Cert.ReferenceIdeal.Facts₀.bcast_S16_S1x16_1 b) (ix2 p q)
      = b (ix1 q) := by
  refine (broadcastInDim_apply _ Cert.ReferenceIdeal.Facts₀.bcast_S1x16_S100000x16_0_1 _ (ix2 p q) (ix2 (0 : Fin 1) q) (fun a => match a with
    | ⟨0, _⟩ => by show 0 = if (1 : Nat) = 1 then 0 else p.val; rw [if_pos rfl]
    | ⟨1, _⟩ => by show q.val = if (16 : Nat) = 1 then 0 else q.val; rw [if_neg (by decide)])).trans ?_
  exact broadcastInDim_apply _ Cert.ReferenceIdeal.Facts₀.bcast_S16_S1x16_1 b (ix2 (0 : Fin 1) q) (ix1 q) (fun a => match a with
    | ⟨0, _⟩ => by show q.val = if (16 : Nat) = 1 then 0 else q.val; rw [if_neg (by decide)])

/-- The reference's accumulated rows plus the broadcast bias are the layer's biased rows, the bias kept as the kernel
    keeps it (a length-`16` vector cast to a `[1, 16]` row). -/
theorem biased16 (a : FVec Ideal Cert.ReferenceIdeal.S100000x16 .f32) (b : FVec Ideal Cert.ReferenceIdeal.S16 .f32) :
    addf a (broadcastInDim Cert.ReferenceIdeal.S100000x16 ![0, 1] Cert.ReferenceIdeal.Facts₀.bcast_S1x16_S100000x16_0_1 (broadcastInDim Cert.ReferenceIdeal.S1x16 ![1] Cert.ReferenceIdeal.Facts₀.bcast_S16_S1x16_1 b))
      = Gcn.biasAdd (M := 100000) (N := 16) a (shapeCast Cert.KernelIdeal.S1x16 b Cert.KernelIdeal.Facts₀.shapeCasts_S16_S1x16) := by
  funext i
  rw [eq_ix2 i]
  exact congrArg (fun z => a (ix2 (i 0) (i 1)) + z) ((biasRows16 b (i 0) (i 1)).trans
    (shapeCast_a_1a_apply b Cert.KernelIdeal.Facts₀.shapeCasts_S16_S1x16 (0 : Fin 1) (i 1)).symm)

/-- The same followed by the reference's clamp at the broadcast zero word. -/
theorem clamped16 (a : FVec Ideal Cert.ReferenceIdeal.S100000x16 .f32) (b : FVec Ideal Cert.ReferenceIdeal.S16 .f32) :
    maximumf (addf a (broadcastInDim Cert.ReferenceIdeal.S100000x16 ![0, 1] Cert.ReferenceIdeal.Facts₀.bcast_S1x16_S100000x16_0_1 (broadcastInDim Cert.ReferenceIdeal.S1x16 ![1] Cert.ReferenceIdeal.Facts₀.bcast_S16_S1x16_1 b)))
        (broadcastInDim Cert.ReferenceIdeal.S100000x16 ![] Cert.ReferenceIdeal.Facts₀.bcast_S_S100000x16 (constant (F := Ideal) Cert.ReferenceIdeal.S_ .f32 0x00000000#32))
      = Gcn.biasClamp (M := 100000) (N := 16) a (shapeCast Cert.KernelIdeal.S1x16 b Cert.KernelIdeal.Facts₀.shapeCasts_S16_S1x16) := by
  rw [biased16]
  funext i
  show max (Gcn.biasAdd (M := 100000) (N := 16) a _ i) (broadcastInDim Cert.ReferenceIdeal.S100000x16 ![] Cert.ReferenceIdeal.Facts₀.bcast_S_S100000x16 (constant (F := Ideal) Cert.ReferenceIdeal.S_ .f32 0x00000000#32) i) = _
  rw [broadcastInDim_apply _ Cert.ReferenceIdeal.Facts₀.bcast_S_S100000x16 (constant (F := Ideal) Cert.ReferenceIdeal.S_ .f32 0x00000000#32) i ix0 (fun a => a.elim0)]
  rfl

/-- The bias broadcast to a `[1, 32]` row and then over the nodes reads, at `(r, j)`, the bias's entry `j`. -/
theorem biasRows32 (b : FVec Ideal Cert.ReferenceIdeal.S32 .f32) (p : Fin 100000) (q : Fin 32) :
    broadcastInDim Cert.ReferenceIdeal.S100000x32 ![0, 1] Cert.ReferenceIdeal.Facts₀.bcast_S1x32_S100000x32_0_1 (broadcastInDim Cert.ReferenceIdeal.S1x32 ![1] Cert.ReferenceIdeal.Facts₀.bcast_S32_S1x32_1 b) (ix2 p q)
      = b (ix1 q) := by
  refine (broadcastInDim_apply _ Cert.ReferenceIdeal.Facts₀.bcast_S1x32_S100000x32_0_1 _ (ix2 p q) (ix2 (0 : Fin 1) q) (fun a => match a with
    | ⟨0, _⟩ => by show 0 = if (1 : Nat) = 1 then 0 else p.val; rw [if_pos rfl]
    | ⟨1, _⟩ => by show q.val = if (32 : Nat) = 1 then 0 else q.val; rw [if_neg (by decide)])).trans ?_
  exact broadcastInDim_apply _ Cert.ReferenceIdeal.Facts₀.bcast_S32_S1x32_1 b (ix2 (0 : Fin 1) q) (ix1 q) (fun a => match a with
    | ⟨0, _⟩ => by show q.val = if (32 : Nat) = 1 then 0 else q.val; rw [if_neg (by decide)])

/-- The reference's accumulated rows plus the broadcast bias are the layer's biased rows, the bias kept as the kernel
    keeps it (a length-`32` vector cast to a `[1, 32]` row). -/
theorem biased32 (a : FVec Ideal Cert.ReferenceIdeal.S100000x32 .f32) (b : FVec Ideal Cert.ReferenceIdeal.S32 .f32) :
    addf a (broadcastInDim Cert.ReferenceIdeal.S100000x32 ![0, 1] Cert.ReferenceIdeal.Facts₀.bcast_S1x32_S100000x32_0_1 (broadcastInDim Cert.ReferenceIdeal.S1x32 ![1] Cert.ReferenceIdeal.Facts₀.bcast_S32_S1x32_1 b))
      = Gcn.biasAdd (M := 100000) (N := 32) a (shapeCast Cert.KernelIdeal.S1x32 b Cert.KernelIdeal.Facts₀.shapeCasts_S32_S1x32) := by
  funext i
  rw [eq_ix2 i]
  exact congrArg (fun z => a (ix2 (i 0) (i 1)) + z) ((biasRows32 b (i 0) (i 1)).trans
    (shapeCast_a_1a_apply b Cert.KernelIdeal.Facts₀.shapeCasts_S32_S1x32 (0 : Fin 1) (i 1)).symm)

/-- The same followed by the reference's clamp at the broadcast zero word. -/
theorem clamped32 (a : FVec Ideal Cert.ReferenceIdeal.S100000x32 .f32) (b : FVec Ideal Cert.ReferenceIdeal.S32 .f32) :
    maximumf (addf a (broadcastInDim Cert.ReferenceIdeal.S100000x32 ![0, 1] Cert.ReferenceIdeal.Facts₀.bcast_S1x32_S100000x32_0_1 (broadcastInDim Cert.ReferenceIdeal.S1x32 ![1] Cert.ReferenceIdeal.Facts₀.bcast_S32_S1x32_1 b)))
        (broadcastInDim Cert.ReferenceIdeal.S100000x32 ![] Cert.ReferenceIdeal.Facts₀.bcast_S_S100000x32 (constant (F := Ideal) Cert.ReferenceIdeal.S_ .f32 0x00000000#32))
      = Gcn.biasClamp (M := 100000) (N := 32) a (shapeCast Cert.KernelIdeal.S1x32 b Cert.KernelIdeal.Facts₀.shapeCasts_S32_S1x32) := by
  rw [biased32]
  funext i
  show max (Gcn.biasAdd (M := 100000) (N := 32) a _ i) (broadcastInDim Cert.ReferenceIdeal.S100000x32 ![] Cert.ReferenceIdeal.Facts₀.bcast_S_S100000x32 (constant (F := Ideal) Cert.ReferenceIdeal.S_ .f32 0x00000000#32) i) = _
  rw [broadcastInDim_apply _ Cert.ReferenceIdeal.Facts₀.bcast_S_S100000x32 (constant (F := Ideal) Cert.ReferenceIdeal.S_ .f32 0x00000000#32) i ix0 (fun a => a.elim0)]
  rfl

end Cert.RefForms

end
-- ==== Proof.Forward.lean ====
/-
  The whole forward pass as one function of the arguments, in the operations both programs share.

  `srcEdges` / `dstEdges`: the given edges' sources (arrivals) followed by the nodes `0 … 99999` themselves, one self-loop
  per node.  `wrap`: an edge list as the column of indices the host's gather takes, a negative entry moved up by the
  number of nodes.  `degree`: one added into each edge's arrival node.  `invSqrtDeg`: the inverse square root of the
  degree where the degree is positive, zero elsewhere.  `edgeWeight`: for each edge the product of that quantity at
  its two ends.  A layer: the features times the weights, gathered along the sources, each gathered row times its edge's
  weight, the rows added into their arrival nodes, plus the bias, clamped at zero except in the last layer.
-/
import proofs.«173124_j13924283973778_2_alg».proof.KernelIdeal
import proofs.«173124_j13924283973778_2_alg».proof.Proof.Spec
import Idealize.ShloMosaic.PureOps.Ideal

noncomputable section

namespace Cert.KernelIdeal.Forward

open Cert.KernelIdeal Idealize.ShloMosaic

variable [Cert.KernelIdeal.Facts₀]
open Cert.KernelIdeal.Facts₀

abbrev Ints (s : Shape) := (⟨s, .i32⟩ : BufTy).Contents (Elt Ideal)

/-- The edges' sources, then every node once. -/
def srcEdges (a1 : Ints S2x1600000) : Ints S1700000 :=
  concatenate S1700000 0 [⟨S1600000, shapeCast S1600000 (extractStridedSlice S1x1600000 ![0, 0] a1 slices_S2x1600000_S1x1600000_0_0) shapeCasts_S1x1600000_S1600000⟩, ⟨S100000, iotaInDim S100000 32 0⟩] concatenates_S1600000_S100000_S1700000_d0

/-- The edges' arrivals, then every node once. -/
def dstEdges (a1 : Ints S2x1600000) : Ints S1700000 :=
  concatenate S1700000 0 [⟨S1600000, shapeCast S1600000 (extractStridedSlice S1x1600000 ![1, 0] a1 slices_S2x1600000_S1x1600000_1_0) shapeCasts_S1x1600000_S1600000⟩, ⟨S100000, iotaInDim S100000 32 0⟩] concatenates_S1600000_S100000_S1700000_d0

/-- An edge list as a column of gather indices: a negative entry is moved up by the number of nodes. -/
def wrap (e : Ints S1700000) : Ints S1700000x1 :=
  broadcastInDim S1700000x1 ![0] bcast_S1700000_S1700000x1_0
    (select (cmpi .slt e (broadcastInDim S1700000 ![] bcast_S_S1700000 (constantI S_ 32 0#32)))
      (addi e (broadcastInDim S1700000 ![] bcast_S_S1700000 (constantI S_ 32 100000#32))) e)

/-- Each node's number of arriving edges. -/
def degree (d : Ints S1700000) : FVec Ideal S100000 .f32 :=
  Host.scatterAdd scatter_S100000_S1700000x1_S1700000_n_0_0_1
    (broadcastInDim S100000 ![] bcast_S_S100000 (constant S_ .f32 0x00000000#32))
    (broadcastInDim S1700000x1 ![0] bcast_S1700000_S1700000x1_0 d)
    (broadcastInDim S1700000 ![] bcast_S_S1700000 (constant S_ .f32 0x3F800000#32))

/-- The inverse square root of the degree where it is positive, zero elsewhere. -/
def invSqrtDeg (d : Ints S1700000) : FVec Ideal S100000 .f32 :=
  select (cmpf .ogt (degree d) (broadcastInDim S100000 ![] bcast_S_S100000 (constant S_ .f32 0x00000000#32)))
    (Host.rsqrt (maximumf (degree d) (broadcastInDim S100000 ![] bcast_S_S100000 (constant S_ .f32 0x2B8CBCCC#32))))
    (broadcastInDim S100000 ![] bcast_S_S100000 (id (constant S_ .f32 0x00000000#32)))

/-- Each edge's weight: the product of that quantity at the edge's two ends. -/
def edgeWeight (s d : Ints S1700000) : FVec Ideal S1700000 .f32 :=
  mulf (Host.gather gather_S100000_S1700000x1_S1700000_n_0_n_n_0_1_1 (invSqrtDeg d) (wrap s))
    (Host.gather gather_S100000_S1700000x1_S1700000_n_0_n_n_0_1_1 (invSqrtDeg d) (wrap d))

/-- The first layer, two features to sixteen, clamped. -/
def layer1 (x : FVec Ideal S100000x2 .f32) (w : FVec Ideal S2x16 .f32) (b : FVec Ideal S16 .f32)
    (s d : Ints S1700000) (n : FVec Ideal S1700000 .f32) : FVec Ideal S100000x16 .f32 :=
  Gcn.biasClamp (M := 100000) (N := 16)
    (Host.scatterAdd scatter_S100000x16_S1700000x1_S1700000x16_1_0_0_1
      (broadcastInDim S100000x16 ![] bcast_S_S100000x16 (constant S_ .f32 0x00000000#32))
      (broadcastInDim S1700000x1 ![0] bcast_S1700000_S1700000x1_0 d)
      (Gcn.scale (E := 1700000) (N := 16)
        (Host.gather gather_S100000x16_S1700000x1_S1700000x16_1_0_n_n_0_1_116 (Gcn.lin (M := 100000) (K := 2) (N := 16) x w) (wrap s))
        (shapeCast S1700000x1 n shapeCasts_S1700000_S1700000x1)))
    (shapeCast S1x16 b shapeCasts_S16_S1x16)

/-- The second layer, sixteen features to thirty-two, clamped. -/
def layer2 (x : FVec Ideal S100000x16 .f32) (w : FVec Ideal S16x32 .f32) (b : FVec Ideal S32 .f32)
    (s d : Ints S1700000) (n : FVec Ideal S1700000 .f32) : FVec Ideal S100000x32 .f32 :=
  Gcn.biasClamp (M := 100000) (N := 32)
    (Host.scatterAdd scatter_S100000x32_S1700000x1_S1700000x32_1_0_0_1
      (broadcastInDim S100000x32 ![] bcast_S_S100000x32 (constant S_ .f32 0x00000000#32))
      (broadcastInDim S1700000x1 ![0] bcast_S1700000_S1700000x1_0 d)
      (Gcn.scale (E := 1700000) (N := 32)
        (Host.gather gather_S100000x32_S1700000x1_S1700000x32_1_0_n_n_0_1_132 (Gcn.lin (M := 100000) (K := 16) (N := 32) x w) (wrap s))
        (shapeCast S1700000x1 n shapeCasts_S1700000_S1700000x1)))
    (shapeCast S1x32 b shapeCasts_S32_S1x32)

/-- The third layer, thirty-two features to sixteen, not clamped. -/
def layer3 (x : FVec Ideal S100000x32 .f32) (w : FVec Ideal S32x16 .f32) (b : FVec Ideal S16 .f32)
    (s d : Ints S1700000) (n : FVec Ideal S1700000 .f32) : FVec Ideal S100000x16 .f32 :=
  Gcn.biasAdd (M := 100000) (N := 16)
    (Host.scatterAdd scatter_S100000x16_S1700000x1_S1700000x16_1_0_0_1
      (broadcastInDim S100000x16 ![] bcast_S_S100000x16 (constant S_ .f32 0x00000000#32))
      (broadcastInDim S1700000x1 ![0] bcast_S1700000_S1700000x1_0 d)
      (Gcn.scale (E := 1700000) (N := 16)
        (Host.gather gather_S100000x16_S1700000x1_S1700000x16_1_0_n_n_0_1_116 (Gcn.lin (M := 100000) (K := 32) (N := 16) x w) (wrap s))
        (shapeCast S1700000x1 n shapeCasts_S1700000_S1700000x1)))
    (shapeCast S1x16 b shapeCasts_S16_S1x16)

/-- The three layers over the edge lists and the edge weights of the given edges. -/
def forward (a0 : FVec Ideal S100000x2 .f32) (a1 : Ints S2x1600000) (a2 : FVec Ideal S2x16 .f32) (a3 : FVec Ideal S16 .f32)
    (a4 : FVec Ideal S16x32 .f32) (a5 : FVec Ideal S32 .f32) (a6 : FVec Ideal S32x16 .f32) (a7 : FVec Ideal S16 .f32) :
    FVec Ideal S100000x16 .f32 :=
  layer3 (layer2 (layer1 a0 a2 a3 (srcEdges a1) (dstEdges a1) (edgeWeight (srcEdges a1) (dstEdges a1))) a4 a5
      (srcEdges a1) (dstEdges a1) (edgeWeight (srcEdges a1) (dstEdges a1))) a6 a7
    (srcEdges a1) (dstEdges a1) (edgeWeight (srcEdges a1) (dstEdges a1))

end Cert.KernelIdeal.Forward

end
-- ==== Proof.RefForward.lean ====
/-
  The reference's result is the forward pass of its arguments.

  Its result term is three layers spelt with the host's matrix product, a multiplication by the doubly broadcast edge
  weights and an addition of the doubly broadcast bias followed (in the first two layers) by a maximum against the
  broadcast zero.  Read as `Gcn.lin`, `Gcn.scale`, `Gcn.biasClamp` / `Gcn.biasAdd` (`RefForms`), it is the forward pass
  word for word: the same gathers, accumulations, edge lists and edge weights.
-/
import proofs.«173124_j13924283973778_2_alg».proof.Proof.RefForms
import proofs.«173124_j13924283973778_2_alg».proof.Proof.RefRun
import proofs.«173124_j13924283973778_2_alg».proof.Proof.Forward
import proofs.«173124_j13924283973778_2_alg».proof.Proof.Gen.KernelIdeal

set_option maxRecDepth 16384

noncomputable section

namespace Cert.RefForward

open Idealize.ShloMosaic Idealize.ShloMosaic.TcCoe Idealize.SL.Sem
open Cert.ReferenceIdeal

set_option maxHeartbeats 4000000 in
theorem ref_is_forward (m' : (ℓ : Loc nD τ sig) → Buf (Elt Ideal) ℓ) (c : Dev nD) :
    Cert.ReferenceIdeal.ValueP.res_main_v114 m' c
      = Cert.KernelIdeal.Forward.forward (m' ((c.tc : Thread nD τ).loc main_arg0)) (m' ((c.tc : Thread nD τ).loc main_arg1))
          (m' ((c.tc : Thread nD τ).loc main_arg2)) (m' ((c.tc : Thread nD τ).loc main_arg3)) (m' ((c.tc : Thread nD τ).loc main_arg4))
          (m' ((c.tc : Thread nD τ).loc main_arg5)) (m' ((c.tc : Thread nD τ).loc main_arg6)) (m' ((c.tc : Thread nD τ).loc main_arg7)) := by
  unfold Cert.ReferenceIdeal.ValueP.res_main_v114
  simp only [Cert.RefForms.product1, Cert.RefForms.product2, Cert.RefForms.product3]
  repeat rw [Cert.RefForms.scaled16]
  repeat rw [Cert.RefForms.scaled32]
  repeat rw [Cert.RefForms.clamped16]
  repeat rw [Cert.RefForms.clamped32]
  repeat rw [Cert.RefForms.biased16]
  rfl

end Cert.RefForward

end
-- ==== Proof.Bridge.lean ====
/-
  The two programs compute the same array.

  The idealized kernel's result buffer ends at the last boundary's contents (the run with its result named).  Walking
  that chain of boundaries back to the launch memory: each launch's output array is the layer step it computes
  (`Gcn.lin`, `Gcn.scale`, `Gcn.biasClamp` / `Gcn.biasAdd`) of the arrays it found, every other buffer is what it was,
  and each stretch of host operations writes its operations' results.  What comes out is three graph-convolution layers
  over the edge lists, the edge weights and the arguments.  The reference's result is the same three layers, with its
  own spelling of the three steps, which `RefForms` reads as the same functions; the gathers, the accumulations and the
  edge preparation are the same host operations on both sides.
-/
import proofs.«173124_j13924283973778_2_alg».proof.Proof.Gen.KernelIdeal.Frame
import proofs.«173124_j13924283973778_2_alg».proof.Proof.LinearOne
import proofs.«173124_j13924283973778_2_alg».proof.Proof.LinearTwo
import proofs.«173124_j13924283973778_2_alg».proof.Proof.LinearThree
import proofs.«173124_j13924283973778_2_alg».proof.Proof.ScaleOne
import proofs.«173124_j13924283973778_2_alg».proof.Proof.ScaleTwo
import proofs.«173124_j13924283973778_2_alg».proof.Proof.ScaleThree
import proofs.«173124_j13924283973778_2_alg».proof.Proof.BiasOne
import proofs.«173124_j13924283973778_2_alg».proof.Proof.BiasTwo
import proofs.«173124_j13924283973778_2_alg».proof.Proof.BiasThree
import proofs.«173124_j13924283973778_2_alg».proof.Proof.RefForms
import proofs.«173124_j13924283973778_2_alg».proof.Proof.RefRun
import proofs.«173124_j13924283973778_2_alg».proof.Proof.Forward
import proofs.«173124_j13924283973778_2_alg».proof.Proof.RefForward
import Idealize.ShloMosaic.Lib.StableHlo.Run

set_option maxRecDepth 16384

noncomputable section

namespace Cert.KernelIdeal.Bridge

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-! ## Each launch's output array, at the boundary after it -/

theorem out0 : W4 m ρ c (Proc.devRef .tc main_v33)
    = Gcn.lin (M := 100000) (K := 2) (N := 16) (W3 m ρ c (Proc.devRef .tc main_arg0)) (W3 m ρ c (Proc.devRef .tc main_arg2)) :=
  (W4_arr m ρ c 2).trans (LinearOne.final (V3 m ρ) c)
theorem out1 : W6 m ρ c (Proc.devRef .tc main_v41)
    = Gcn.scale (E := 1700000) (N := 16) (W5 m ρ c (Proc.devRef .tc main_v40)) (W5 m ρ c (Proc.devRef .tc main_v32)) :=
  (W6_arr m ρ c 2).trans (ScaleOne.final (V5 m ρ) c)
theorem out2 : W8 m ρ c (Proc.devRef .tc main_v46)
    = Gcn.biasClamp (M := 100000) (N := 16) (W7 m ρ c (Proc.devRef .tc main_v44)) (W7 m ρ c (Proc.devRef .tc main_v45)) :=
  (W8_arr m ρ c 2).trans (BiasOne.final (V7 m ρ) c)
theorem out3 : W9 m ρ c (Proc.devRef .tc main_v47)
    = Gcn.lin (M := 100000) (K := 16) (N := 32) (W8 m ρ c (Proc.devRef .tc main_v46)) (W8 m ρ c (Proc.devRef .tc main_arg4)) :=
  (W9_arr m ρ c 2).trans (LinearTwo.final (V8 m ρ) c)
theorem out4 : W11 m ρ c (Proc.devRef .tc main_v55)
    = Gcn.scale (E := 1700000) (N := 32) (W10 m ρ c (Proc.devRef .tc main_v54)) (W10 m ρ c (Proc.devRef .tc main_v32)) :=
  (W11_arr m ρ c 2).trans (ScaleTwo.final (V10 m ρ) c)
theorem out5 : W13 m ρ c (Proc.devRef .tc main_v60)
    = Gcn.biasClamp (M := 100000) (N := 32) (W12 m ρ c (Proc.devRef .tc main_v58)) (W12 m ρ c (Proc.devRef .tc main_v59)) :=
  (W13_arr m ρ c 2).trans (BiasTwo.final (V12 m ρ) c)
theorem out6 : W14 m ρ c (Proc.devRef .tc main_v61)
    = Gcn.lin (M := 100000) (K := 32) (N := 16) (W13 m ρ c (Proc.devRef .tc main_v60)) (W13 m ρ c (Proc.devRef .tc main_arg6)) :=
  (W14_arr m ρ c 2).trans (LinearThree.final (V13 m ρ) c)
theorem out7 : W16 m ρ c (Proc.devRef .tc main_v69)
    = Gcn.scale (E := 1700000) (N := 16) (W15 m ρ c (Proc.devRef .tc main_v68)) (W15 m ρ c (Proc.devRef .tc main_v32)) :=
  (W16_arr m ρ c 2).trans (ScaleThree.final (V15 m ρ) c)
theorem out8 : W18 m ρ c (Proc.devRef .tc main_v74)
    = Gcn.biasAdd (M := 100000) (N := 16) (W17 m ρ c (Proc.devRef .tc main_v72)) (W17 m ρ c (Proc.devRef .tc main_v73)) :=
  (W18_arr m ρ c 2).trans (BiasThree.final (V17 m ρ) c)

/-! ## The edge weights survive the launches that only read them -/

theorem weights_after1 : W6 m ρ c (Proc.devRef .tc main_v32) = W5 m ρ c (Proc.devRef .tc main_v32) :=
  (W6_arr m ρ c 1).trans (((dat1 (V5 m ρ) c).arrAt_in 1 rfl _).trans (A_eq1 (V5 m ρ) c 1))
theorem weights_after4 : W11 m ρ c (Proc.devRef .tc main_v32) = W10 m ρ c (Proc.devRef .tc main_v32) :=
  (W11_arr m ρ c 1).trans (((dat4 (V10 m ρ) c).arrAt_in 1 rfl _).trans (A_eq4 (V10 m ρ) c 1))

/-! ## The same boundary facts with the buffer left free, and what a launch leaves alone

Each fact above names one buffer at one boundary.  Below are the same facts stated so that the buffer is recognised by
what it is rather than by how it is written, and, for each launch, the complementary fact: a buffer that is none of the
launch's three arrays holds after the launch what it held before it. -/

theorem out0' : W4 m ρ c (no_index (Proc.devRef .tc main_v33))
    = Gcn.lin (M := 100000) (K := 2) (N := 16) (W3 m ρ c (Proc.devRef .tc main_arg0)) (W3 m ρ c (Proc.devRef .tc main_arg2)) := out0 m ρ c
theorem out1' : W6 m ρ c (no_index (Proc.devRef .tc main_v41))
    = Gcn.scale (E := 1700000) (N := 16) (W5 m ρ c (Proc.devRef .tc main_v40)) (W5 m ρ c (Proc.devRef .tc main_v32)) := out1 m ρ c
theorem out2' : W8 m ρ c (no_index (Proc.devRef .tc main_v46))
    = Gcn.biasClamp (M := 100000) (N := 16) (W7 m ρ c (Proc.devRef .tc main_v44)) (W7 m ρ c (Proc.devRef .tc main_v45)) := out2 m ρ c
theorem out3' : W9 m ρ c (no_index (Proc.devRef .tc main_v47))
    = Gcn.lin (M := 100000) (K := 16) (N := 32) (W8 m ρ c (Proc.devRef .tc main_v46)) (W8 m ρ c (Proc.devRef .tc main_arg4)) := out3 m ρ c
theorem out4' : W11 m ρ c (no_index (Proc.devRef .tc main_v55))
    = Gcn.scale (E := 1700000) (N := 32) (W10 m ρ c (Proc.devRef .tc main_v54)) (W10 m ρ c (Proc.devRef .tc main_v32)) := out4 m ρ c
theorem out5' : W13 m ρ c (no_index (Proc.devRef .tc main_v60))
    = Gcn.biasClamp (M := 100000) (N := 32) (W12 m ρ c (Proc.devRef .tc main_v58)) (W12 m ρ c (Proc.devRef .tc main_v59)) := out5 m ρ c
theorem out6' : W14 m ρ c (no_index (Proc.devRef .tc main_v61))
    = Gcn.lin (M := 100000) (K := 32) (N := 16) (W13 m ρ c (Proc.devRef .tc main_v60)) (W13 m ρ c (Proc.devRef .tc main_arg6)) := out6 m ρ c
theorem out7' : W16 m ρ c (no_index (Proc.devRef .tc main_v69))
    = Gcn.scale (E := 1700000) (N := 16) (W15 m ρ c (Proc.devRef .tc main_v68)) (W15 m ρ c (Proc.devRef .tc main_v32)) := out7 m ρ c
theorem out8' : W18 m ρ c (no_index (Proc.devRef .tc main_v74))
    = Gcn.biasAdd (M := 100000) (N := 16) (W17 m ρ c (Proc.devRef .tc main_v72)) (W17 m ρ c (Proc.devRef .tc main_v73)) := out8 m ρ c
theorem weights_after1' : W6 m ρ c (no_index (Proc.devRef .tc main_v32)) = W5 m ρ c (Proc.devRef .tc main_v32) := weights_after1 m ρ c
theorem weights_after4' : W11 m ρ c (no_index (Proc.devRef .tc main_v32)) = W10 m ρ c (Proc.devRef .tc main_v32) := weights_after4 m ρ c
/-- A buffer that is none of launch 0's arrays is after the launch what it was before. -/
theorem kept0 (b : Ref sig .tc) (hb : ∀ w, Pipeline.arrRef spec0 w ≠ b) :
    W4 m ρ c (no_index (Proc.devRef .tc b)) = W3 m ρ c (Proc.devRef .tc b) := W4_of_ne m ρ c b hb
/-- A buffer that is none of launch 1's arrays is after the launch what it was before. -/
theorem kept1 (b : Ref sig .tc) (hb : ∀ w, Pipeline.arrRef spec1 w ≠ b) :
    W6 m ρ c (no_index (Proc.devRef .tc b)) = W5 m ρ c (Proc.devRef .tc b) := W6_of_ne m ρ c b hb
/-- A buffer that is none of launch 2's arrays is after the launch what it was before. -/
theorem kept2 (b : Ref sig .tc) (hb : ∀ w, Pipeline.arrRef spec2 w ≠ b) :
    W8 m ρ c (no_index (Proc.devRef .tc b)) = W7 m ρ c (Proc.devRef .tc b) := W8_of_ne m ρ c b hb
/-- A buffer that is none of launch 3's arrays is after the launch what it was before. -/
theorem kept3 (b : Ref sig .tc) (hb : ∀ w, Pipeline.arrRef spec3 w ≠ b) :
    W9 m ρ c (no_index (Proc.devRef .tc b)) = W8 m ρ c (Proc.devRef .tc b) := W9_of_ne m ρ c b hb
/-- A buffer that is none of launch 4's arrays is after the launch what it was before. -/
theorem kept4 (b : Ref sig .tc) (hb : ∀ w, Pipeline.arrRef spec4 w ≠ b) :
    W11 m ρ c (no_index (Proc.devRef .tc b)) = W10 m ρ c (Proc.devRef .tc b) := W11_of_ne m ρ c b hb
/-- A buffer that is none of launch 5's arrays is after the launch what it was before. -/
theorem kept5 (b : Ref sig .tc) (hb : ∀ w, Pipeline.arrRef spec5 w ≠ b) :
    W13 m ρ c (no_index (Proc.devRef .tc b)) = W12 m ρ c (Proc.devRef .tc b) := W13_of_ne m ρ c b hb
/-- A buffer that is none of launch 6's arrays is after the launch what it was before. -/
theorem kept6 (b : Ref sig .tc) (hb : ∀ w, Pipeline.arrRef spec6 w ≠ b) :
    W14 m ρ c (no_index (Proc.devRef .tc b)) = W13 m ρ c (Proc.devRef .tc b) := W14_of_ne m ρ c b hb
/-- A buffer that is none of launch 7's arrays is after the launch what it was before. -/
theorem kept7 (b : Ref sig .tc) (hb : ∀ w, Pipeline.arrRef spec7 w ≠ b) :
    W16 m ρ c (no_index (Proc.devRef .tc b)) = W15 m ρ c (Proc.devRef .tc b) := W16_of_ne m ρ c b hb
/-- A buffer that is none of launch 8's arrays is after the launch what it was before. -/
theorem kept8 (b : Ref sig .tc) (hb : ∀ w, Pipeline.arrRef spec8 w ≠ b) :
    W18 m ρ c (no_index (Proc.devRef .tc b)) = W17 m ρ c (Proc.devRef .tc b) := W18_of_ne m ρ c b hb

/-! ## The host preamble's results, at the boundary where the first launch starts -/

/-! ## The inlined `where`: its three operations carry their operands through a change of type that is the identity -/

set_option maxHeartbeats 50000 in
theorem where_copy (X : (⟨S_, .f32⟩ : BufTy).Contents (Elt Ideal)) :
    (TRef.of (sig := sig) (T := ⟨S_, .f32⟩) main_call0_v0).toBuf (Val := Elt Ideal)
      (id ((TRef.of (sig := sig) (T := ⟨S_, .f32⟩) main_cst_3).ofBuf (Val := Elt Ideal) X)) = id X := rfl
set_option maxHeartbeats 50000 in
theorem where_spread (Y : (⟨S_, .f32⟩ : BufTy).Contents (Elt Ideal)) :
    (TRef.of (sig := sig) (T := ⟨S100000, .f32⟩) main_call0_v1).toBuf (Val := Elt Ideal)
      (broadcastInDim S100000 ![] bcast_S_S100000 ((TRef.of (sig := sig) (T := ⟨S_, .f32⟩) main_call0_v0).ofBuf (Val := Elt Ideal) Y))
      = broadcastInDim S100000 ![] bcast_S_S100000 Y := rfl
set_option maxHeartbeats 50000 in
theorem where_choose (C : (⟨S100000, .i1⟩ : BufTy).Contents (Elt Ideal)) (A B : (⟨S100000, .f32⟩ : BufTy).Contents (Elt Ideal)) :
    (TRef.of (sig := sig) (T := ⟨S100000, .f32⟩) main_v16).toBuf (Val := Elt Ideal)
      (select ((TRef.of (sig := sig) (T := ⟨S100000, .i1⟩) main_v12).ofBuf (Val := Elt Ideal) C)
        ((TRef.of (sig := sig) (T := ⟨S100000, .f32⟩) main_v15).ofBuf (Val := Elt Ideal) A)
        ((TRef.of (sig := sig) (T := ⟨S100000, .f32⟩) main_call0_v1).ofBuf (Val := Elt Ideal) B))
      = select C A B := rfl

theorem src_at : W3 m ρ c (Proc.devRef .tc main_v3) = Forward.srcEdges (m ((c.tc : Thread nD τ).loc main_arg1)) := by
  dsimp only [W3, W2, W1, hostOps0_2, hostOps0_1, hostOps0]
  after_results
  rfl
theorem dst_at : W3 m ρ c (Proc.devRef .tc main_v6) = Forward.dstEdges (m ((c.tc : Thread nD τ).loc main_arg1)) := by
  dsimp only [W3, W2, W1, hostOps0_2, hostOps0_1, hostOps0]
  after_results
  rfl
/-- The same two edge lists one stretch earlier, where the edge weights are formed from them. -/
theorem src_before : W2 m ρ c (Proc.devRef .tc main_v3) = Forward.srcEdges (m ((c.tc : Thread nD τ).loc main_arg1)) := by
  dsimp only [W2, W1, hostOps0_1, hostOps0]
  after_results
  rfl
theorem dst_before : W2 m ρ c (Proc.devRef .tc main_v6) = Forward.dstEdges (m ((c.tc : Thread nD τ).loc main_arg1)) := by
  dsimp only [W2, W1, hostOps0_1, hostOps0]
  after_results
  rfl
set_option maxHeartbeats 1000000 in
/-- The guarded inverse square root of the degrees, as the inlined `where` leaves it. -/
theorem invSqrt_before : W2 m ρ c (Proc.devRef .tc main_v16) = Forward.invSqrtDeg (Forward.dstEdges (m ((c.tc : Thread nD τ).loc main_arg1))) := by
  dsimp only [W2, W1, hostOps0_1, hostOps0]
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  rw [where_choose, where_spread, where_copy]
  rfl
theorem src_before' : W2 m ρ c (no_index (Proc.devRef .tc main_v3)) = Forward.srcEdges (m ((c.tc : Thread nD τ).loc main_arg1)) := src_before m ρ c
theorem dst_before' : W2 m ρ c (no_index (Proc.devRef .tc main_v6)) = Forward.dstEdges (m ((c.tc : Thread nD τ).loc main_arg1)) := dst_before m ρ c
theorem invSqrt_before' : W2 m ρ c (no_index (Proc.devRef .tc main_v16)) = Forward.invSqrtDeg (Forward.dstEdges (m ((c.tc : Thread nD τ).loc main_arg1))) := invSqrt_before m ρ c
set_option maxHeartbeats 1000000 in
/-- The edge weights, as the column the scaling launches read. -/
theorem weight_at : W3 m ρ c (Proc.devRef .tc main_v32)
    = shapeCast S1700000x1 (Forward.edgeWeight (Forward.srcEdges (m ((c.tc : Thread nD τ).loc main_arg1))) (Forward.dstEdges (m ((c.tc : Thread nD τ).loc main_arg1))))
        shapeCasts_S1700000_S1700000x1 := by
  dsimp only [W3, hostOps0_2]
  generalize hV : W2 m ρ c = V
  after_results_simp
  subst hV
  simp only [src_before', dst_before', invSqrt_before']
  rfl
theorem arg0_at : W3 m ρ c (Proc.devRef .tc main_arg0) = m ((c.tc : Thread nD τ).loc main_arg0) := by
  dsimp only [W3, W2, W1, hostOps0_2, hostOps0_1, hostOps0]
  after_results
theorem arg2_at : W3 m ρ c (Proc.devRef .tc main_arg2) = m ((c.tc : Thread nD τ).loc main_arg2) := by
  dsimp only [W3, W2, W1, hostOps0_2, hostOps0_1, hostOps0]
  after_results
theorem arg3_at : W3 m ρ c (Proc.devRef .tc main_arg3) = m ((c.tc : Thread nD τ).loc main_arg3) := by
  dsimp only [W3, W2, W1, hostOps0_2, hostOps0_1, hostOps0]
  after_results
theorem arg4_at : W3 m ρ c (Proc.devRef .tc main_arg4) = m ((c.tc : Thread nD τ).loc main_arg4) := by
  dsimp only [W3, W2, W1, hostOps0_2, hostOps0_1, hostOps0]
  after_results
theorem arg5_at : W3 m ρ c (Proc.devRef .tc main_arg5) = m ((c.tc : Thread nD τ).loc main_arg5) := by
  dsimp only [W3, W2, W1, hostOps0_2, hostOps0_1, hostOps0]
  after_results
theorem arg6_at : W3 m ρ c (Proc.devRef .tc main_arg6) = m ((c.tc : Thread nD τ).loc main_arg6) := by
  dsimp only [W3, W2, W1, hostOps0_2, hostOps0_1, hostOps0]
  after_results
theorem arg7_at : W3 m ρ c (Proc.devRef .tc main_arg7) = m ((c.tc : Thread nD τ).loc main_arg7) := by
  dsimp only [W3, W2, W1, hostOps0_2, hostOps0_1, hostOps0]
  after_results

theorem src_at' : W3 m ρ c (no_index (Proc.devRef .tc main_v3)) = Forward.srcEdges (m ((c.tc : Thread nD τ).loc main_arg1)) := src_at m ρ c
theorem dst_at' : W3 m ρ c (no_index (Proc.devRef .tc main_v6)) = Forward.dstEdges (m ((c.tc : Thread nD τ).loc main_arg1)) := dst_at m ρ c
theorem weight_at' : W3 m ρ c (no_index (Proc.devRef .tc main_v32))
    = shapeCast S1700000x1 (Forward.edgeWeight (Forward.srcEdges (m ((c.tc : Thread nD τ).loc main_arg1))) (Forward.dstEdges (m ((c.tc : Thread nD τ).loc main_arg1))))
        shapeCasts_S1700000_S1700000x1 := weight_at m ρ c
theorem arg0_at' : W3 m ρ c (no_index (Proc.devRef .tc main_arg0)) = m ((c.tc : Thread nD τ).loc main_arg0) := arg0_at m ρ c
theorem arg2_at' : W3 m ρ c (no_index (Proc.devRef .tc main_arg2)) = m ((c.tc : Thread nD τ).loc main_arg2) := arg2_at m ρ c
theorem arg3_at' : W3 m ρ c (no_index (Proc.devRef .tc main_arg3)) = m ((c.tc : Thread nD τ).loc main_arg3) := arg3_at m ρ c
theorem arg4_at' : W3 m ρ c (no_index (Proc.devRef .tc main_arg4)) = m ((c.tc : Thread nD τ).loc main_arg4) := arg4_at m ρ c
theorem arg5_at' : W3 m ρ c (no_index (Proc.devRef .tc main_arg5)) = m ((c.tc : Thread nD τ).loc main_arg5) := arg5_at m ρ c
theorem arg6_at' : W3 m ρ c (no_index (Proc.devRef .tc main_arg6)) = m ((c.tc : Thread nD τ).loc main_arg6) := arg6_at m ρ c
theorem arg7_at' : W3 m ρ c (no_index (Proc.devRef .tc main_arg7)) = m ((c.tc : Thread nD τ).loc main_arg7) := arg7_at m ρ c

/-! ## The walk from the last boundary back to the first launch's, and the two programs joined -/

set_option pp.maxSteps 4000 in
set_option pp.deepTerms false in
set_option maxHeartbeats 8000000 in
/-- The kernel's last boundary at its result buffer is the forward pass of the launch memory's arguments. -/
theorem kernel_is_forward : W18 m ρ c (Proc.devRef .tc main_v74) = Forward.forward (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  simp (disch := decide) only [out8']
  dsimp only [W17, hostOps8]
  after_results_simp
  simp (disch := decide) only [out7', kept7]
  dsimp only [W15, hostOps7]
  after_results_simp
  simp (disch := decide) only [out6', kept6]
  simp (disch := decide) only [out5', kept5]
  dsimp only [W12, hostOps5]
  after_results_simp
  simp (disch := decide) only [out4', weights_after4', kept4]
  dsimp only [W10, hostOps4]
  after_results_simp
  simp (disch := decide) only [out3', kept3]
  simp (disch := decide) only [out2', kept2]
  dsimp only [W7, hostOps2]
  after_results_simp
  simp (disch := decide) only [out1', weights_after1', kept1]
  dsimp only [W5, hostOps1]
  after_results_simp
  simp (disch := decide) only [out0', kept0]
  simp only [src_at', dst_at', weight_at', arg0_at', arg2_at', arg3_at', arg4_at', arg5_at', arg6_at', arg7_at']
  rfl

/-- From memories that agree on the arguments, the reference's result term is the kernel's last boundary at its result
    buffer: both are the forward pass of the same arguments. -/
theorem result_eq (m' : (ℓ : Loc Cert.ReferenceIdeal.nD Cert.ReferenceIdeal.τ Cert.ReferenceIdeal.sig) → Buf (Elt Ideal) ℓ)
    (hagree : m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)
      ∧ m' ((c.tc : Thread Cert.ReferenceIdeal.nD Cert.ReferenceIdeal.τ).loc Cert.ReferenceIdeal.main_arg3) = m ((c.tc : Thread nD τ).loc main_arg3)
      ∧ m' ((c.tc : Thread Cert.ReferenceIdeal.nD Cert.ReferenceIdeal.τ).loc Cert.ReferenceIdeal.main_arg4) = m ((c.tc : Thread nD τ).loc main_arg4)
      ∧ m' ((c.tc : Thread Cert.ReferenceIdeal.nD Cert.ReferenceIdeal.τ).loc Cert.ReferenceIdeal.main_arg5) = m ((c.tc : Thread nD τ).loc main_arg5)
      ∧ m' ((c.tc : Thread Cert.ReferenceIdeal.nD Cert.ReferenceIdeal.τ).loc Cert.ReferenceIdeal.main_arg6) = m ((c.tc : Thread nD τ).loc main_arg6)
      ∧ m' ((c.tc : Thread Cert.ReferenceIdeal.nD Cert.ReferenceIdeal.τ).loc Cert.ReferenceIdeal.main_arg7) = m ((c.tc : Thread nD τ).loc main_arg7)) :
    Cert.ReferenceIdeal.ValueP.res_main_v114 m' c = W18 m ρ c (Proc.devRef .tc main_v74) := by
  obtain ⟨h0, h1, h2, h3, h4, h5, h6, h7⟩ := hagree
  rw [Cert.RefForward.ref_is_forward m' c, kernel_is_forward m ρ c, h0, h1, h2, h3, h4, h5, h6, h7]

end Cert.KernelIdeal.Bridge

end
-- ==== Proof.lean ====
/-
  A three-layer graph convolution as a chain of kernel launches, against its plain reference, over the extended reals.

  Both programs prepare the same edge lists (the given edges followed by one self-loop per node), count each node's
  arrivals, and weight every edge by the product of the inverse square roots of the degrees of the nodes it joins.  Each
  of the three layers then forms `x · W`, gathers the product's rows along the edges' sources, scales each gathered row
  by its edge's weight, adds the scaled rows into their arrival nodes and adds the bias; the first two layers clamp the
  result at zero.

  The kernel runs the matrix product, the scaling and the bias step of every layer as launches over blocks of rows
  (10000 nodes, or 5000 edges, per grid point) and leaves the gathers and the accumulations to the host; the reference
  does everything on the host.  A launch's blocks are the restrictions of one whole-array function and cover the array, so
  each launch computes that function of the arrays it finds (`LinearOne` … `BiasThree`); at the ideal values the change
  of float format before the kernel's products is the identity and the products are the same finite sums as the
  reference's.  The reference's broadcasts of the edge weights and of the bias read the same entries as the kernel's
  column and row (`RefForms`).  Between those steps the two programs apply the same host operations to equal arrays
  (`Bridge`).  No step uses a law that needs finiteness, so the precondition is never opened.

  The kernel does not rewrite any operation on its way to the ideal values, so there is nothing to preserve beyond the
  program's own text.
-/
import proofs.«173124_j13924283973778_2_alg».proof.Defs
import proofs.«173124_j13924283973778_2_alg».proof.Proof.Gen.Kernel
import proofs.«173124_j13924283973778_2_alg».proof.Proof.Gen.Kernel.Skeleton
import proofs.«173124_j13924283973778_2_alg».proof.Proof.Gen.Kernel.Launch
import proofs.«173124_j13924283973778_2_alg».proof.Proof.Gen.Kernel.Points
import proofs.«173124_j13924283973778_2_alg».proof.Proof.Gen.Kernel.Frame
import proofs.«173124_j13924283973778_2_alg».proof.Proof.Gen.KernelIdeal
import proofs.«173124_j13924283973778_2_alg».proof.Proof.Gen.KernelIdeal.Skeleton
import proofs.«173124_j13924283973778_2_alg».proof.Proof.Gen.KernelIdeal.Launch
import proofs.«173124_j13924283973778_2_alg».proof.Proof.Gen.KernelIdeal.Points
import proofs.«173124_j13924283973778_2_alg».proof.Proof.Gen.KernelIdeal.Frame
import proofs.«173124_j13924283973778_2_alg».proof.Proof.Gen.ReferenceIdeal
import proofs.«173124_j13924283973778_2_alg».proof.Proof.Gen.Pre_finite_inputs
import proofs.«173124_j13924283973778_2_alg».proof.Proof.KernelRun
import proofs.«173124_j13924283973778_2_alg».proof.Proof.RefRun
import proofs.«173124_j13924283973778_2_alg».proof.Proof.Bridge
import Idealize.ShloMosaic.Adequacy
import Idealize.ShloMosaic.Init

noncomputable section

namespace Cert.Proof

open Idealize.ShloMosaic Idealize.ShloMosaic.TcCoe Idealize.SL.Sem

/-- The kernel as printed runs, faults nowhere and leaves its arguments alone. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference is host operations only: its run, with what it says about the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Nothing was rewritten on the way to the ideal values. -/
theorem preserves : Cert.preserves_Kernel_KernelIdeal := trivial

/-- From memories that agree on the arguments both programs run, and the kernel's result buffer ends at the array the
    reference's ends at. -/
theorem algebraic : Cert.algebraic_KernelIdeal_ReferenceIdeal := by
  intro m ρ m' ρ' _ hagree
  refine ⟨fun c => Cert.KernelIdeal.Gen.W18 m ρ c (Proc.devRef .tc Cert.KernelIdeal.main_v74), Cert.KernelIdeal.Named.run m ρ, ?_⟩
  exact (θ_run Cert.ReferenceIdeal.defs _ _).mono
    (fun _ h c => ⟨(h c).1.trans (Cert.KernelIdeal.Bridge.result_eq m ρ c m' (hagree c)), (h c).2⟩)
    (Cert.ReferenceIdeal.ValueP.run (F := Ideal) m' ρ')

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
